-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S8192x1024 : Shape := ⟨2, ![8192, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S8192x1024 : S_.BroadcastsInDim S8192x1024 (![] : Fin 0 → Fin S8192x1024.rank)
  reducesTo_S8192x1024_S_d0_1 : S8192x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S4x8192x1024 .f32) (main_arg1 : FVec F S8192x1024 .f32) (main_arg2 : FVec F S1024 .f32) (main_arg3 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S4x8192x1024 : Shape := ⟨3, ![4, 8192, 1024]⟩
abbrev S8192x1024 : Shape := ⟨2, ![8192, 1024]⟩
abbrev S1024 : Shape := ⟨1, ![1024]⟩
abbrev S4x512x1024 : Shape := ⟨3, ![4, 512, 1024]⟩
abbrev S512x1024 : Shape := ⟨2, ![512, 1024]⟩
abbrev S1x512x1024 : Shape := ⟨3, ![1, 512, 1024]⟩
abbrev S4x512 : Shape := ⟨2, ![4, 512]⟩
abbrev S4x512x1 : Shape := ⟨3, ![4, 512, 1]⟩
abbrev S1x1x1024 : Shape := ⟨3, ![1, 1, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S4x8192x1024, .f32⟩
  | .local _ .vmem, ⟨0, _⟩ => ⟨S4x512x1024, .f32⟩
  | .local _ .vmem, ⟨1, _⟩ => ⟨S4x512x1024, .f32⟩
  | .local _ .vmem, ⟨2, _⟩ => ⟨S512x1024, .f32⟩
  | .local _ .vmem, ⟨3, _⟩ => ⟨S512x1024, .f32⟩
  | .local _ .vmem, ⟨4, _⟩ => ⟨S1024, .f32⟩
  | .local _ .vmem, ⟨5, _⟩ => ⟨S1024, .f32⟩
  | .local _ .vmem, ⟨6, _⟩ => ⟨S4x512x1024, .f32⟩
  | .local _ .vmem, ⟨7, _⟩ => ⟨S4x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4x512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S4x512x1024_S4x512x1024_0_0_0 : ∀ a, (![0, 0, 0] : Fin 3 → Nat) a + S4x512x1024.size a ≤ S4x512x1024.size a
  h_S4x512x1024 : 0 < S4x512x1024.numel
  inb_S512x1024_S512x1024_0_0 : ∀ a, (![0, 0] : Fin 2 → Nat) a + S512x1024.size a ≤ S512x1024.size a
  h_S512x1024 : 0 < S512x1024.numel
  shapeCasts_S512x1024_S1x512x1024 : S512x1024.ShapeCasts S1x512x1024
  broadcasts_S1x512x1024_S4x512x1024 : S1x512x1024.Broadcasts S4x512x1024
  reduces_S4x512x1024_S4x512 : S4x512x1024.Reduces [2] S4x512
  shapeCasts_S4x512_S4x512x1 : S4x512.ShapeCasts S4x512x1
  broadcasts_S4x512x1_S4x512x1024 : S4x512x1.Broadcasts S4x512x1024
  inb_S1024_S1024_0 : ∀ a, (![0] : Fin 1 → Nat) a + S1024.size a ≤ S1024.size a
  h_S1024 : 0 < S1024.numel
  shapeCasts_S1024_S1x1x1024 : S1024.ShapeCasts S1x1x1024
  broadcasts_S1x1x1024_S4x512x1024 : S1x1x1024.Broadcasts S4x512x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x512x1024.size a ≤ S4x8192x1024.size a
  hwx0_0 : ∀ i : grid0.Coords, EltTy.bits .f32 = 32 ∨ (Rect.block (s := S4x8192x1024) S4x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512x1024.size a ≤ S4x8192x1024.size a
  hwx0_4 : ∀ i : grid0.Coords, EltTy.bits .f32 = 32 ∨ (Rect.block (s := S4x8192x1024) S4x512x1024.size (cc0_transform_4 i) (hinb0_4 i)).WholeWords (EltTy.packing .f32)

variable [Facts₀]

abbrev win0_0 : Pipeline.Window sig grid0 :=
  Pipeline.Window.ofSpec (Memref.whole main_arg0) S4x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4x512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S8192x1024 : Shape := ⟨2, ![8192, 1024]⟩
abbrev S1024 : Shape := ⟨1, ![1024]⟩
abbrev S8192 : Shape := ⟨1, ![8192]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S1x8192x1024 : Shape := ⟨3, ![1, 8192, 1024]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 60
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8192x1024, .f32⟩
  | .hbm, ⟨2, _⟩ => ⟨S1024, .f32⟩
  | .hbm, ⟨3, _⟩ => ⟨S1024, .f32⟩
  | .hbm, ⟨4, _⟩ => ⟨S8192, .i32⟩
  | .hbm, ⟨5, _⟩ => ⟨S_, .i32⟩
  | .hbm, ⟨6, _⟩ => ⟨S8192, .i32⟩
  | .hbm, ⟨7, _⟩ => ⟨S8192, .i1⟩
  | .hbm, ⟨8, _⟩ => ⟨S_, .i32⟩
  | .hbm, ⟨9, _⟩ => ⟨S8192, .i32⟩
  | .hbm, ⟨10, _⟩ => ⟨S8192, .i32⟩
  | .hbm, ⟨11, _⟩ => ⟨S8192, .i32⟩
  | .hbm, ⟨12, _⟩ => ⟨S8192x1, .i32⟩
  | .hbm, ⟨13, _⟩ => ⟨S1, .i32⟩
  | .hbm, ⟨14, _⟩ => ⟨S_, .i32⟩
  | .hbm, ⟨15, _⟩ => ⟨S8192x1, .i32⟩
  | .hbm, ⟨16, _⟩ => ⟨S8192x1, .i1⟩
  | .hbm, ⟨17, _⟩ => ⟨S1x1, .i32⟩
  | .hbm, ⟨18, _⟩ => ⟨S8192x1, .i32⟩
  | .hbm, ⟨19, _⟩ => ⟨S8192x1, .i1⟩
  | .hbm, ⟨20, _⟩ => ⟨S8192x1, .i1⟩
  | .hbm, ⟨21, _⟩ => ⟨S_, .i1⟩
  | .hbm, ⟨22, _⟩ => ⟨S8192, .i1⟩
  | .hbm, ⟨23, _⟩ => ⟨S8192x1024, .f32⟩
  | .hbm, ⟨24, _⟩ => ⟨S8192x1024, .i1⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S1x8192x1024, .f32⟩
  | .hbm, ⟨29, _⟩ => ⟨S4x8192x1024, .f32⟩
  | .hbm, ⟨30, _⟩ => ⟨S4x8192x1024, .f32⟩
  | .hbm, ⟨31, _⟩ => ⟨S_, .f32⟩
  | .hbm, ⟨32, _⟩ => ⟨S4x8192, .f32⟩
  | .hbm, ⟨33, _⟩ => ⟨S4x8192x1, .f32⟩
  | .hbm, ⟨34, _⟩ => ⟨S_, .f32⟩
  | .hbm, ⟨35, _⟩ => ⟨S4x8192x1, .f32⟩
  | .hbm, ⟨36, _⟩ => ⟨S4x8192x1, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S_, .f32⟩
  | .hbm, ⟨49, _⟩ => ⟨S4x8192x1, .f32⟩
  | .hbm, ⟨50, _⟩ => ⟨S4x8192x1, .f32⟩
  | .hbm, ⟨51, _⟩ => ⟨S4x8192x1, .f32⟩
  | .hbm, ⟨52, _⟩ => ⟨S4x8192x1024, .f32⟩
  | .hbm, ⟨53, _⟩ => ⟨S4x8192x1024, .f32⟩
  | .hbm, ⟨54, _⟩ => ⟨S1x1x1024, .f32⟩
  | .hbm, ⟨55, _⟩ => ⟨S4x8192x1024, .f32⟩
  | .hbm, ⟨56, _⟩ => ⟨S4x8192x1024, .f32⟩
  | .hbm, ⟨57, _⟩ => ⟨S1x1x1024, .f32⟩
  | .hbm, ⟨58, _⟩ => ⟨S4x8192x1024, .f32⟩
  | .hbm, ⟨59, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_cst : Ref sig .tc := ⟨.hbm, 31, rfl⟩
abbrev main_v5 : Ref sig .tc := ⟨.hbm, 32, rfl⟩
abbrev main_v6 : Ref sig .tc := ⟨.hbm, 33, rfl⟩
abbrev main_cst_0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_cst_1 : Ref sig .tc := ⟨.hbm, 40, rfl⟩
abbrev main_v12 : Ref sig .tc := ⟨.hbm, 41, rfl⟩
abbrev main_v13 : Ref sig .tc := ⟨.hbm, 42, rfl⟩
abbrev main_cst_2 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev main_cst_3 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩

abbrev nD : Nat := 1
abbrev τ : Topo := Topo.v7x

variable {F : FTy → Type} [FloatOps F]

class Facts₀ : Prop where
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1_S1x1_1 : S1.BroadcastsInDim S1x1 (![1] : Fin 1 → Fin S1x1.rank)
  bcast_S1x1_S8192x1_0_1 : S1x1.BroadcastsInDim S8192x1 (![0, 1] : Fin 2 → Fin S8192x1.rank)
  reducesTo_S8192x1_S8192_d1 : S8192x1.ReducesTo [1] S8192
  h_S_ : 0 < S_.numel
  bcast_S8192_S8192x1024_0 : S8192.BroadcastsInDim S8192x1024 (![0] : Fin 1 → Fin S8192x1024.rank)
  bcast_S_S8192x1024 : S_.BroadcastsInDim S8192x1024 (![] : Fin 0 → Fin S8192x1024.rank)
  bcast_S8192x1024_S1x8192x1024_1_2 : S8192x1024.BroadcastsInDim S1x8192x1024 (![1, 2] : Fin 2 → Fin S1x8192x1024.rank)
  bcast_S1x8192x1024_S4x8192x1024_0_1_2 : S1x8192x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  gather_S8192x1024_S8192x1_S8192x1024_1_0_n_n_0_1_11024_wf : GatherDims.WF S8192x1024 S8192x1 S8192x1024 [1] [0] [] [0] [] 1 ![1, 1024]

variable [Facts₀]

def gather_S8192x1024_S8192x1_S8192x1024_1_0_n_n_0_1_11024 : GatherDims S8192x1024 S8192x1 S8192x1024 where
  offsetDims := [1]
  collapsedSliceDims := [0]
  operandBatchingDims := []
  startIndicesBatchingDims := []
  startIndexMap := [0]
  indexVectorDim := 1
  sliceSizes := ![1, 1024]
  wf := gather_S8192x1024_S8192x1_S8192x1024_1_0_n_n_0_1_11024_wf

class Facts : Prop extends Facts₀ where

variable [Facts]
-- ==== Proof.Spec.lean ====
/-
  Layer normalization of `x + pos` along the last axis, written index by index on the extended reals in the two
  arrangements the two programs use.

  With `h b s k = x[b,s,k] + pos[s,k]` and the row sums `S₁ = ∑ₖ h`, `S₂ = ∑ₖ h·h`:
  * one program takes the mean as `S₁ · 2⁻¹⁰`, the variance as `S₂ · 2⁻¹⁰ − mean²`, and multiplies the centred entry by the
    reciprocal square root of `variance + ε`;
  * the other takes the mean as `S₁ / 1024`, the variance as `(∑ₖ (h − mean)²) / 1024`, and divides the centred entry by the
    square root of `variance + ε`.
  Both then scale by `γ[d]` and add `β[d]`. On finite entries the two agree (`E[h²] − E[h]² = E[(h − E h)²]`, and a positive
  real's reciprocal square root is the inverse of its square root); that law is proved elsewhere, this module only states the
  two readings.
-/
import Idealize.ShloMosaic.PureOps.Ideal
import Idealize.ShloMosaic.Lib.ValueIdx

noncomputable section

namespace Cert.LN

open Idealize.ShloMosaic Idealize.ShloMosaic.ValueIdx

/-- The shapes of `x` (and of the result), of the positional table, and of `γ`, `β`. -/
abbrev Sx : Shape := ⟨3, ![4, 8192, 1024]⟩
abbrev Sp : Shape := ⟨2, ![8192, 1024]⟩
abbrev Sv : Shape := ⟨1, ![1024]⟩

/-- The f32 word of `2⁻¹⁰ = 1/1024`. -/
def cInv : EReal := Ideal.ofBits .f32 0x3A800000#32
/-- The f32 word of `1024`. -/
def cN : EReal := Ideal.ofBits .f32 0x44800000#32
/-- The f32 word both programs use for `ε` (the float nearest `10⁻⁵`). -/
def eps : EReal := Ideal.ofBits .f32 0x3727C5AC#32

/-- The entry being normalized: `h b s k = x[b,s,k] + pos[s,k]`. -/
def h (x : Sx.Idx → EReal) (pos : Sp.Idx → EReal) (b : Fin 4) (s : Fin 8192) (k : Fin 1024) : EReal :=
  x (ix3 b s k) + pos (ix2 s k)

/-- The row sum `∑ₖ h b s k`. -/
def sum1 (x : Sx.Idx → EReal) (pos : Sp.Idx → EReal) (b : Fin 4) (s : Fin 8192) : EReal :=
  ∑ k : Fin 1024, h x pos b s k

/-- The row sum of squares `∑ₖ (h b s k)²`. -/
def sum2 (x : Sx.Idx → EReal) (pos : Sp.Idx → EReal) (b : Fin 4) (s : Fin 8192) : EReal :=
  ∑ k : Fin 1024, h x pos b s k * h x pos b s k

/-! ## The arrangement with moments and a reciprocal square root -/

def meanK (x : Sx.Idx → EReal) (pos : Sp.Idx → EReal) (b : Fin 4) (s : Fin 8192) : EReal :=
  sum1 x pos b s * cInv

def varK (x : Sx.Idx → EReal) (pos : Sp.Idx → EReal) (b : Fin 4) (s : Fin 8192) : EReal :=
  sum2 x pos b s * cInv - meanK x pos b s * meanK x pos b s

def outK (x : Sx.Idx → EReal) (pos : Sp.Idx → EReal) (γ β : Sv.Idx → EReal) (b : Fin 4) (s : Fin 8192) (d : Fin 1024) : EReal :=
  (h x pos b s d - meanK x pos b s) * Ideal.rsqrt (varK x pos b s + eps) * γ (ix1 d) + β (ix1 d)

/-- The whole array in that arrangement. -/
def arrK (x : Sx.Idx → EReal) (pos : Sp.Idx → EReal) (γ β : Sv.Idx → EReal) : Sx.Idx → EReal :=
  fun i => outK x pos γ β (i 0) (i 1) (i 2)

/-! ## The arrangement with centred squares and a division by the square root -/

def meanR (x : Sx.Idx → EReal) (pos : Sp.Idx → EReal) (b : Fin 4) (s : Fin 8192) : EReal :=
  Ideal.div (sum1 x pos b s) cN

def varR (x : Sx.Idx → EReal) (pos : Sp.Idx → EReal) (b : Fin 4) (s : Fin 8192) : EReal :=
  Ideal.div (∑ k : Fin 1024, (h x pos b s k - meanR x pos b s) * (h x pos b s k - meanR x pos b s)) cN

def outR (x : Sx.Idx → EReal) (pos : Sp.Idx → EReal) (γ β : Sv.Idx → EReal) (b : Fin 4) (s : Fin 8192) (d : Fin 1024) : EReal :=
  Ideal.div (h x pos b s d - meanR x pos b s) (Ideal.sqrt (varR x pos b s + eps)) * γ (ix1 d) + β (ix1 d)

/-- The whole array in that arrangement. -/
def arrR (x : Sx.Idx → EReal) (pos : Sp.Idx → EReal) (γ β : Sv.Idx → EReal) : Sx.Idx → EReal :=
  fun i => outR x pos γ β (i 0) (i 1) (i 2)

end Cert.LN

end
-- ==== Proof.Literals.lean ====
/-
  The three float words of the layer normalization, read as extended reals: two exact powers of two and a positive real.
-/
import proofs.«164354_g48069273977172_cont_8to1c4_857_15_alg».proof.Proof.Spec
import Idealize.ShloMosaic.PureOps.Ideal
import Idealize.ShloMosaic.PureOps.Ideal.Laws

noncomputable section

namespace Cert.LN

open Idealize.ShloMosaic Idealize.ShloMosaic.ValueIdx

/-- The word `0x3A800000` has exponent field `117` and a zero fraction: it denotes `2²³ · 2^(117 − 127 − 23) = 2⁻¹⁰`. -/
theorem cInv_eq : cInv = ((1 / 1024 : ℝ) : EReal) := by
  simp [cInv, Ideal.ofBits, Ideal.ieee, -EReal.coe_mul]; norm_num

/-- The word `0x44800000` has exponent field `137` and a zero fraction: it denotes `2²³ · 2^(137 − 127 − 23) = 2¹⁰`. -/
theorem cN_eq : cN = ((1024 : ℝ) : EReal) := by
  simp [cN, Ideal.ofBits, Ideal.ieee, -EReal.coe_mul]; norm_num

/-- The word `0x3727C5AC` has a clear sign bit and exponent field `110`, neither `0` nor `255`: it denotes a positive
    real, `(2²³ + 2606508) · 2^(110 − 127 − 23)`. -/
theorem eps_pos : ∃ e : ℝ, 0 < e ∧ eps = (e : EReal) := by
  refine ⟨((2 ^ 23 + 2606508 : ℕ) : ℝ) * (2 : ℝ) ^ ((110 : ℤ) - 127 - 23), by positivity, ?_⟩
  simp [eps, Ideal.ofBits, Ideal.ieee, -EReal.coe_mul]

end Cert.LN

end
-- ==== Proof.Algebra.lean ====
/-
  The algebraic law joining the two arrangements of the layer normalization, on the extended reals.

  On finite entries every quantity is the coercion of a real, so the law is proved in `ℝ` and carried back:
  * the mean: dividing by `1024` is multiplying by `1/1024` (true for every extended real);
  * the variance: with `μ = (∑ₖ fₖ)/n`, `(∑ₖ (fₖ − μ)²)/n = (∑ₖ fₖ²)/n − μ²`; the centred form shows it is `≥ 0`;
  * the normalization: for a real `w > 0`, the reciprocal square root of `w` is the inverse of its square root, and
    dividing by a nonzero real is multiplying by its inverse.
-/
import proofs.«164354_g48069273977172_cont_8to1c4_857_15_alg».proof.Proof.Spec
import proofs.«164354_g48069273977172_cont_8to1c4_857_15_alg».proof.Proof.Literals
import Idealize.ShloMosaic.PureOps.Ideal
import Idealize.ShloMosaic.PureOps.Ideal.Laws

noncomputable section

namespace Cert.LN

open Idealize.ShloMosaic Idealize.ShloMosaic.ValueIdx

namespace Alg

/-! ## Finite sums of reals inside the extended reals -/

/-- The coercion of a finite sum of reals is the sum of the coercions. -/
theorem coe_finset_sum {ι : Type*} (s : Finset ι) (f : ι → ℝ) :
    ((∑ i ∈ s, f i : ℝ) : EReal) = ∑ i ∈ s, (f i : EReal) := by
  classical
  refine Finset.induction_on s (by simp) ?_
  intro a s ha ih
  rw [Finset.sum_insert ha, Finset.sum_insert ha, EReal.coe_add, ih]

section Sums
variable {ι : Type*} [Fintype ι] (g : ι → EReal) (f : ι → ℝ) (hg : ∀ k, g k = (f k : EReal))
include hg

/-- A sum of real entries is the coercion of the real sum. -/
theorem sum_of_real : ∑ k, g k = ((∑ k, f k : ℝ) : EReal) := by
  rw [coe_finset_sum]; exact Finset.sum_congr rfl fun k _ => hg k

/-- Likewise the sum of their squares. -/
theorem sum_sq_of_real : ∑ k, g k * g k = ((∑ k, f k * f k : ℝ) : EReal) := by
  rw [coe_finset_sum]; exact Finset.sum_congr rfl fun k _ => by rw [hg k, EReal.coe_mul]

/-- Likewise the sum of their squared distances to a real `m`. -/
theorem sum_centred_of_real (m : ℝ) :
    ∑ k, (g k - (m : EReal)) * (g k - (m : EReal)) = ((∑ k, (f k - m) * (f k - m) : ℝ) : EReal) := by
  rw [coe_finset_sum]; exact Finset.sum_congr rfl fun k _ => by rw [hg k, EReal.coe_mul, EReal.coe_sub]

end Sums

/-! ## The variance identity in `ℝ` -/

/-- `E[(f − E f)²] = E[f²] − (E f)²` over a finite index type of cardinality `n ≠ 0`, means taken as products with `1/n`. -/
theorem centred_eq_moments {ι : Type*} [Fintype ι] (f : ι → ℝ) (n : ℝ) (hn : n ≠ 0)
    (hcard : (Fintype.card ι : ℝ) = n) :
    (∑ k, (f k - (∑ j, f j) * (1 / n)) * (f k - (∑ j, f j) * (1 / n))) * (1 / n)
      = (∑ k, f k * f k) * (1 / n) - (∑ j, f j) * (1 / n) * ((∑ j, f j) * (1 / n)) := by
  obtain ⟨μ, hμ⟩ : ∃ μ : ℝ, μ = (∑ j, f j) * (1 / n) := ⟨_, rfl⟩
  rw [← hμ]
  have h1 : ∀ k, (f k - μ) * (f k - μ) = f k * f k - 2 * μ * f k + μ * μ := fun k => by ring
  have h2 : ∑ k, (f k - μ) * (f k - μ) = (∑ k, f k * f k) - 2 * μ * (∑ k, f k) + n * (μ * μ) := by
    simp only [h1, Finset.sum_add_distrib, Finset.sum_sub_distrib, ← Finset.mul_sum, Finset.sum_const,
      Finset.card_univ, nsmul_eq_mul, hcard]
    ring
  have h3 : ∑ k, f k = n * μ := by rw [hμ]; field_simp
  rw [h2, h3]; field_simp; ring

/-- The centred form is nonnegative when `n > 0`. -/
theorem centred_nonneg {ι : Type*} [Fintype ι] (f : ι → ℝ) (m n : ℝ) (hn : 0 < n) :
    0 ≤ (∑ k, (f k - m) * (f k - m)) * (1 / n) :=
  mul_nonneg (Finset.sum_nonneg fun k _ => mul_self_nonneg _) (by positivity)

/-! ## Square roots of a positive real -/

/-- The square root of a positive real, as an extended real. -/
theorem sqrt_of_pos {w : ℝ} (hw : 0 < w) : Ideal.sqrt (w : EReal) = ((Real.sqrt w : ℝ) : EReal) := by
  rw [Ideal.sqrt_coe, if_neg (not_lt.2 hw.le)]

/-- The reciprocal square root of a positive real is the inverse of its square root. -/
theorem rsqrt_of_pos {w : ℝ} (hw : 0 < w) : Ideal.rsqrt (w : EReal) = (((Real.sqrt w)⁻¹ : ℝ) : EReal) := by
  rw [Ideal.rsqrt_coe, if_neg (not_lt.2 hw.le), if_neg hw.ne']

/-- Dividing by the square root of a positive real is multiplying by its reciprocal square root. -/
theorem div_sqrt_eq_mul_rsqrt {w : ℝ} (hw : 0 < w) (a : EReal) :
    Ideal.div a (Ideal.sqrt (w : EReal)) = a * Ideal.rsqrt (w : EReal) := by
  rw [sqrt_of_pos hw, rsqrt_of_pos hw, Ideal.div_coe (Real.sqrt_pos.2 hw).ne', one_div]

/-! ## The law over an abstract index type -/

/-- Dividing by `1024` is multiplying by `1/1024`, for every extended real. -/
theorem div_cN (a : EReal) : Ideal.div a ((1024 : ℝ) : EReal) = a * ((1 / 1024 : ℝ) : EReal) :=
  Ideal.div_coe (by norm_num) a

/-- The two arrangements agree on real entries `g k = f k` indexed by a type of cardinality `1024`, for a real `e > 0`
    and any entry `a`, scale `γ` and offset `β`. -/
theorem law {ι : Type*} [Fintype ι] (g : ι → EReal) (f : ι → ℝ) (hg : ∀ k, g k = (f k : EReal))
    (hcard : (Fintype.card ι : ℝ) = 1024) (e : ℝ) (he : 0 < e) (a γ β : EReal) :
    Ideal.div (a - Ideal.div (∑ k, g k) ((1024 : ℝ) : EReal))
        (Ideal.sqrt (Ideal.div (∑ k, (g k - Ideal.div (∑ j, g j) ((1024 : ℝ) : EReal))
          * (g k - Ideal.div (∑ j, g j) ((1024 : ℝ) : EReal))) ((1024 : ℝ) : EReal) + (e : EReal))) * γ + β
      = (a - (∑ k, g k) * ((1 / 1024 : ℝ) : EReal))
        * Ideal.rsqrt ((∑ k, g k * g k) * ((1 / 1024 : ℝ) : EReal)
          - (∑ k, g k) * ((1 / 1024 : ℝ) : EReal) * ((∑ k, g k) * ((1 / 1024 : ℝ) : EReal)) + (e : EReal)) * γ + β := by
  -- the mean is a real μ on both sides
  have hμ : (∑ k, g k) * ((1 / 1024 : ℝ) : EReal) = (((∑ k, f k) * (1 / 1024) : ℝ) : EReal) := by
    rw [sum_of_real g f hg, ← EReal.coe_mul]
  simp only [div_cN]
  rw [hμ, sum_centred_of_real g f hg, sum_sq_of_real g f hg, ← EReal.coe_mul, ← EReal.coe_mul, ← EReal.coe_mul,
    ← EReal.coe_sub, ← centred_eq_moments f 1024 (by norm_num) hcard, ← EReal.coe_add]
  have hv := centred_nonneg f ((∑ k, f k) * (1 / 1024)) 1024 (by norm_num)
  rw [div_sqrt_eq_mul_rsqrt (by linarith)]

/-! ## The law on the two readings -/

/-- On finite `x` and `pos` the entries being normalized are reals. -/
theorem h_real (x : Sx.Idx → EReal) (pos : Sp.Idx → EReal)
    (hx : ∀ i, ∃ r : ℝ, x i = (r : EReal)) (hp : ∀ i, ∃ r : ℝ, pos i = (r : EReal)) (b : Fin 4) (s : Fin 8192) :
    ∃ f : Fin 1024 → ℝ, ∀ k, h x pos b s k = (f k : EReal) := by
  choose xr hxr using hx
  choose pr hpr using hp
  exact ⟨fun k => xr (ix3 b s k) + pr (ix2 s k), fun k => by rw [h, hxr, hpr, EReal.coe_add]⟩

end Alg

open Alg

/-- On finite `x` and `pos` the two arrangements agree at every index. -/
theorem outR_eq_outK (x : Sx.Idx → EReal) (pos : Sp.Idx → EReal) (γ β : Sv.Idx → EReal)
    (hx : ∀ i, ∃ r : ℝ, x i = (r : EReal)) (hp : ∀ i, ∃ r : ℝ, pos i = (r : EReal))
    (b : Fin 4) (s : Fin 8192) (d : Fin 1024) : outR x pos γ β b s d = outK x pos γ β b s d := by
  obtain ⟨f, hf⟩ := h_real x pos hx hp b s
  obtain ⟨e, he, hee⟩ := eps_pos
  unfold outR outK varR varK meanR meanK sum1 sum2
  rw [cN_eq, cInv_eq, hee]
  exact law (h x pos b s) f hf (by simp) e he (h x pos b s d) (γ (ix1 d)) (β (ix1 d))

/-- Hence the two whole arrays are equal. -/
theorem arrR_eq_arrK (x : Sx.Idx → EReal) (pos : Sp.Idx → EReal) (γ β : Sv.Idx → EReal)
    (hx : ∀ i, ∃ r : ℝ, x i = (r : EReal)) (hp : ∀ i, ∃ r : ℝ, pos i = (r : EReal)) :
    arrR x pos γ β = arrK x pos γ β :=
  funext fun i => outR_eq_outK x pos γ β hx hp (i 0) (i 1) (i 2)

end Cert.LN

end
-- ==== Proof.Finite.lean ====
/-
  Finiteness of the inputs, read back from the predicate that states it.

  The predicate is the conjunction of four tests "every entry a of the array satisfies |a| < +∞", one per
  argument.  Each test is an elementwise strict comparison of max a (-a) against the extended real that the
  f32 word 0x7F800000 denotes, namely ⊤, followed by a conjunction over every index of the array.  If the whole
  predicate is 1 then each conjunct is 1, hence each comparison is 1 at every index, hence max a (-a) < ⊤ for
  every entry a, which excludes a = ⊤ and a = ⊥: every entry is a real number.
-/
import proofs.«164354_g48069273977172_cont_8to1c4_857_15_alg».proof.Proof.Gen.Pre_finite_inputs
import Idealize.ShloMosaic.PureOps.Ideal
import Idealize.ShloMosaic.Lib.ReduceAll
import Idealize.ShloMosaic.Lib.ValueIdx

noncomputable section

namespace Cert.LN.Finite

open Idealize.ShloMosaic

/-- The shape of rank 0 has exactly one index (the empty tuple of coordinates). -/
instance : Subsingleton Cert.Pre_finite_inputs.S_.Idx := ⟨fun a b => funext fun d => d.elim0⟩

/-- An extended real a with max a (-a) < ⊤ is a real number: a = ⊤ gives max ⊤ ⊥ = ⊤, and a = ⊥ gives
    max ⊥ ⊤ = ⊤, both contradicting the strict inequality. -/
theorem real_of_abs_lt_top (a : EReal) (h : max a (-a) < ⊤) : ∃ r : ℝ, a = (r : EReal) := by
  induction a using EReal.rec with
  | bot => simp at h
  | coe r => exact ⟨r, rfl⟩
  | top => simp at h

/-- A one-bit word made from a Boolean is 1 exactly when the Boolean is true. -/
theorem ofBool_eq_one (b : Bool) : BitVec.ofBool b = 1#1 ↔ b = true := by cases b <;> decide

/-- The f32 word 0x7F800000 denotes +∞. -/
theorem inf_word : Ideal.ofBits .f32 0x7F800000#32 = (⊤ : EReal) := by simp [Ideal.ofBits, Ideal.ieee]

/-- One entry: if the comparison of max a (-a) against the value of the word 0x7F800000 came out 1, a is real. -/
theorem entry_real (a : EReal) (h : Ideal.cmp .olt (max a (-a)) (Ideal.ofBits .f32 0x7F800000#32) = 1#1) :
    ∃ r : ℝ, a = (r : EReal) := by
  rw [inf_word] at h
  have h' : BitVec.ofBool (decide (max a (-a) < ⊤)) = 1#1 := h
  rw [ofBool_eq_one] at h'
  exact real_of_abs_lt_top a (of_decide_eq_true h')

theorem real_of_fn (x : FVec Ideal Cert.Pre_finite_inputs.S4x8192x1024 .f32) (pos : FVec Ideal Cert.Pre_finite_inputs.S8192x1024 .f32)
    (γ β : FVec Ideal Cert.Pre_finite_inputs.S1024 .f32)
    (h : Cert.Pre_finite_inputs.fn (F := Ideal) x pos γ β = (fun _ => 1#1)) :
    (∀ i, ∃ r : ℝ, x i = (r : EReal)) ∧ (∀ i, ∃ r : ℝ, pos i = (r : EReal)) := by
  have e := congrFun h ValueIdx.ix0
  dsimp only [Cert.Pre_finite_inputs.fn, Cert.Pre_finite_inputs.fn_part1] at e
  -- the conjunction of the four tests, at the one index of the rank-0 result
  change IntOp.andi (IntOp.andi (IntOp.andi _ _) _) _ = 1#1 at e
  rw [IntOp.andi_eq_one, IntOp.andi_eq_one, IntOp.andi_eq_one] at e
  obtain ⟨⟨⟨hx, hp⟩, -⟩, -⟩ := e
  exact ⟨fun i => entry_real (x i) (Host.reduce_andi_all _ _ _ _ _ hx i),
    fun i => entry_real (pos i) (Host.reduce_andi_all _ _ _ _ _ hp i)⟩

/-- The same for the two vectors of length 1024. -/
theorem real_of_fn_params (x : FVec Ideal Cert.Pre_finite_inputs.S4x8192x1024 .f32) (pos : FVec Ideal Cert.Pre_finite_inputs.S8192x1024 .f32)
    (γ β : FVec Ideal Cert.Pre_finite_inputs.S1024 .f32)
    (h : Cert.Pre_finite_inputs.fn (F := Ideal) x pos γ β = (fun _ => 1#1)) :
    (∀ i, ∃ r : ℝ, γ i = (r : EReal)) ∧ (∀ i, ∃ r : ℝ, β i = (r : EReal)) := by
  have e := congrFun h ValueIdx.ix0
  dsimp only [Cert.Pre_finite_inputs.fn, Cert.Pre_finite_inputs.fn_part1] at e
  change IntOp.andi (IntOp.andi (IntOp.andi _ _) _) _ = 1#1 at e
  rw [IntOp.andi_eq_one, IntOp.andi_eq_one, IntOp.andi_eq_one] at e
  obtain ⟨⟨-, hg⟩, hb⟩ := e
  exact ⟨fun i => entry_real (γ i) (Host.reduce_andi_all _ _ _ _ _ hg i),
    fun i => entry_real (β i) (Host.reduce_andi_all _ _ _ _ _ hb i)⟩

end Cert.LN.Finite

end
-- ==== Proof.KernelBlock.lean ====
/-
  One block of the normalization, index by index.

  A block holds the rows `512·t … 512·t + 511` of `x` (for every batch entry), the same rows of the positional table, and
  the whole of `γ` and `β`. What the body leaves in the block at `(b, r, d)` is a function of the four loads whose two
  lane reductions run over the 1024 entries of row `(b, r)` of the sum of the first two loads. This module reads that
  function at an index: the reductions become sums over `Fin 1024`, the pointwise operations become the arithmetic of the
  extended reals, and — when the loads are rows of arrays `x`, `pos`, `γ`, `β` — the value is the moment arrangement
  `Cert.LN.outK` of those arrays at the row the block's row `r` comes from.
-/
import proofs.«164354_g48069273977172_cont_8to1c4_857_15_alg».proof.Proof.Gen.KernelIdeal.Value
import proofs.«164354_g48069273977172_cont_8to1c4_857_15_alg».proof.Proof.Spec
import Idealize.ShloMosaic.Lib.ValueIdx
import Idealize.ShloMosaic.Lib.ValueLayout
import Idealize.ShloMosaic.PureOps.Ideal.Laws

noncomputable section

namespace Cert.KernelIdeal.LNValue

open Cert.KernelIdeal Cert.KernelIdeal.Gen Idealize.ShloMosaic Idealize.ShloMosaic.ValueIdx

/-! ## Where a block index reads each operand -/

theorem ix4_0_ix3 (b : Fin 4) (r : Fin 512) (d : Fin 1024) : Value.ix4_0 (ix3 b r d) = ix3 b r d := by
  funext a; match a with | ⟨0, _⟩ => rfl | ⟨1, _⟩ => rfl | ⟨2, _⟩ => rfl

theorem ix4_1_ix3 (b : Fin 4) (r : Fin 512) (d : Fin 1024) : Value.ix4_1 (ix3 b r d) = ix2 r d := by
  funext a; match a with | ⟨0, _⟩ => rfl | ⟨1, _⟩ => rfl

theorem ix4_2_ix3 (b : Fin 4) (r : Fin 512) (d : Fin 1024) : Value.ix4_2 (ix3 b r d) = ix2 b r := by
  funext a; match a with | ⟨0, _⟩ => rfl | ⟨1, _⟩ => rfl

theorem ix4_3_ix3 (b : Fin 4) (r : Fin 512) (d : Fin 1024) : Value.ix4_3 (ix3 b r d) = ix2 b r := by
  funext a; match a with | ⟨0, _⟩ => rfl | ⟨1, _⟩ => rfl

theorem ix4_4_ix3 (b : Fin 4) (r : Fin 512) (d : Fin 1024) : Value.ix4_4 (ix3 b r d) = ix2 b r := by
  funext a; match a with | ⟨0, _⟩ => rfl | ⟨1, _⟩ => rfl

theorem ix4_5_ix3 (b : Fin 4) (r : Fin 512) (d : Fin 1024) : Value.ix4_5 (ix3 b r d) = ix2 b r := by
  funext a; match a with | ⟨0, _⟩ => rfl | ⟨1, _⟩ => rfl

theorem ix4_6_ix3 (b : Fin 4) (r : Fin 512) (d : Fin 1024) : Value.ix4_6 (ix3 b r d) = ix1 d := by
  funext a; match a with | ⟨0, _⟩ => rfl

theorem ix4_7_ix3 (b : Fin 4) (r : Fin 512) (d : Fin 1024) : Value.ix4_7 (ix3 b r d) = ix1 d := by
  funext a; match a with | ⟨0, _⟩ => rfl

/-! ## A lane reduction of a block is the sum over the row -/

/-- The reduction of a `[4, 512, 1024]` vector over its last axis, at row `(b, r)`, is the sum of the row's 1024 entries. -/
theorem laneSum_apply (src : FVec Ideal S4x512x1024 .f32) (hφ : FKind.Formats .f32)
    (hacc : (0x00000000#32 : BitVec 32) = FKind.add.neutral .f32 hφ) (b : Fin 4) (r : Fin 512) :
    multiReduction .add [2] S4x512 src 0x00000000#32 reduces_S4x512x1024_S4x512 hφ hacc (ix2 b r)
      = ∑ k : Fin 1024, src (ix3 b r k) := by
  refine (Ideal.multiReduction_add_single src 0x00000000#32 reduces_S4x512x1024_S4x512 hφ hacc (ix2 b r)).trans ?_
  show ∑ k : Fin 1024, src (reduces_S4x512x1024_S4x512.lift (ix2 b r) k) = _
  refine Finset.sum_congr rfl fun k _ => congrArg src ?_
  funext a
  apply Fin.ext
  match a with
  | ⟨0, _⟩ => rfl
  | ⟨1, _⟩ => rfl
  | ⟨2, _⟩ => rfl

/-! ## The block at an index -/

/-- The entry being normalized, over the block: the first load plus the second load repeated along the batch axis. -/
abbrev rowVec (P0 : Vec Ideal S4x512x1024 .f32) (P1 : Vec Ideal S512x1024 .f32) : FVec Ideal S4x512x1024 .f32 :=
  addf P0 (broadcastTo S4x512x1024 (shapeCast S1x512x1024 P1 shapeCasts_S512x1024_S1x512x1024) broadcasts_S1x512x1024_S4x512x1024)

/-- At `(b, r, k)` it is the first load there plus the second load at `(r, k)`. -/
theorem rowVec_apply (P0 : Vec Ideal S4x512x1024 .f32) (P1 : Vec Ideal S512x1024 .f32) (b : Fin 4) (r : Fin 512) (k : Fin 1024) :
    rowVec P0 P1 (ix3 b r k) = P0 (ix3 b r k) + P1 (ix2 r k) := by
  show P0 (ix3 b r k) + (broadcastTo S4x512x1024 (shapeCast S1x512x1024 P1 shapeCasts_S512x1024_S1x512x1024) broadcasts_S1x512x1024_S4x512x1024) (ix3 b r k) = _
  congr 1
  refine (broadcastTo_apply _ _ (ix3 b r k) (ix3 (0 : Fin 1) r k) (fun a => ?_)).trans ?_
  · match a with
    | ⟨0, _⟩ => rfl
    | ⟨1, _⟩ => rfl
    | ⟨2, _⟩ => rfl
  · exact shapeCast_ab_1ab_apply P1 _ 0 r k

/-- WHAT THE BODY LEAVES AT `(b, r, d)`, when row `r` of the first two loads is row `s` of arrays `x` and `pos` and the
    last two loads are `γ` and `β` at `d`: the moment arrangement of the normalization of row `(b, s)` at `d`. -/
theorem block_apply (P0 : Vec Ideal S4x512x1024 .f32) (P1 : Vec Ideal S512x1024 .f32) (P2 P3 : Vec Ideal S1024 .f32)
    (x : Cert.LN.Sx.Idx → EReal) (pos : Cert.LN.Sp.Idx → EReal) (γ β : Cert.LN.Sv.Idx → EReal)
    (b : Fin 4) (r : Fin 512) (d : Fin 1024) (s : Fin 8192)
    (hx : ∀ k : Fin 1024, P0 (ix3 b r k) = x (ix3 b s k))
    (hp : ∀ k : Fin 1024, P1 (ix2 r k) = pos (ix2 s k))
    (hγ : P2 (ix1 d) = γ (ix1 d)) (hβ : P3 (ix1 d) = β (ix1 d)) :
    Value.E4 (F := Ideal) P0 P1 P2 P3 (ix3 b r d) = Cert.LN.outK x pos γ β b s d := by
  have hrow : ∀ k : Fin 1024, rowVec P0 P1 (ix3 b r k) = Cert.LN.h x pos b s k := fun k => by
    rw [rowVec_apply, hx, hp]; rfl
  have s1 : multiReduction .add [2] S4x512 (rowVec P0 P1) 0x00000000#32 reduces_S4x512x1024_S4x512 (.inl rfl) rfl (ix2 b r)
      = Cert.LN.sum1 x pos b s :=
    (laneSum_apply _ _ _ b r).trans (Finset.sum_congr rfl fun k _ => hrow k)
  have s2 : multiReduction .add [2] S4x512 (mulf (rowVec P0 P1) (rowVec P0 P1)) 0x00000000#32 reduces_S4x512x1024_S4x512 (.inl rfl) rfl (ix2 b r)
      = Cert.LN.sum2 x pos b s :=
    (laneSum_apply _ _ _ b r).trans (Finset.sum_congr rfl fun k _ => by
      show rowVec P0 P1 (ix3 b r k) * rowVec P0 P1 (ix3 b r k) = _
      rw [hrow k])
  dsimp only [Value.E4]
  rw [ix4_0_ix3, ix4_1_ix3, ix4_2_ix3, ix4_3_ix3, ix4_4_ix3, ix4_5_ix3, ix4_6_ix3, ix4_7_ix3]
  rw [s1, s2, hx d, hp d, hγ, hβ]
  rfl

end Cert.KernelIdeal.LNValue

end
-- ==== Proof.KernelValue.lean ====
/-
  The normalization kernel's result array, as one function of its four argument arrays.

  Point `t` of the 16-point grid stages rows `512·t … 512·t + 511` of `x` (every batch entry) and of the positional table,
  and the whole of `γ` and `β`; it writes back rows `512·t … 512·t + 511` of the result. What it writes at `(b, r, d)` is the
  moment arrangement of the normalization of row `(b, 512·t + r)` at `d`, so each point writes its block of the one
  whole-array function `Cert.LN.arrK` of the arguments; the sixteen blocks tile the rows (row `s` is in block `s / 512`),
  so the array ends holding `Cert.LN.arrK`.
-/
import proofs.«164354_g48069273977172_cont_8to1c4_857_15_alg».proof.Proof.KernelBlock
import proofs.«164354_g48069273977172_cont_8to1c4_857_15_alg».proof.Proof.Gen.KernelIdeal.Value
import proofs.«164354_g48069273977172_cont_8to1c4_857_15_alg».proof.Proof.Spec
import Idealize.ShloMosaic.Lib.Pipeline.Value
import Idealize.ShloMosaic.Lib.ValueIdx
import Idealize.ShloMosaic.PureOps.Ideal.Laws

noncomputable section

namespace Cert.KernelIdeal.LNValue

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## What the body leaves in the block -/

theorem zeros3 : (![0, 0, 0] : Fin 3 → Nat) = fun _ => 0 := funext fun a => by fin_cases a <;> rfl
theorem zeros2 : (![0, 0] : Fin 2 → Nat) = fun _ => 0 := funext fun a => by fin_cases a <;> rfl
theorem zeros1 : (![0] : Fin 1 → Nat) = fun _ => 0 := funext fun a => by fin_cases a <;> rfl

/-- The body loads its four staging buffers whole and stores once, whole: what it leaves is the index-by-index function
    of the four buffers' contents. -/
theorem out_eq (x0 : Vec Ideal S4x512x1024 .f32) (x1 : Vec Ideal S512x1024 .f32) (x2 x3 : Vec Ideal S1024 .f32) :
    out0_4 x0 x1 x2 x3 = Value.E4 x0 x1 x2 x3 := by
  funext y
  unfold out0_4
  rw [Value.canon4_eq]
  rw [View.ld_unit_zero (S := S4x512x1024) zeros3, View.ld_unit_zero (S := S512x1024) zeros2,
    View.ld_unit_zero (S := S1024) zeros1, View.ld_unit_zero (S := S1024) zeros1]

/-! ## The windows' blocks -/

/-- The printed index maps, decided over the grid: at point `t` the blocks of `x`, of the table and of the result sit at
    block row `t`; `γ` and `β` are staged whole. -/
theorem idx_facts : ∀ t : Fin cfg0.N,
    win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 1) = 0
    ∧ win0_3.index t (0 : Fin 1) = 0
    ∧ win0_4.index t (0 : Fin 3) = 0 ∧ win0_4.index t (1 : Fin 3) = t.val ∧ win0_4.index t (2 : Fin 3) = 0 :=
  (by decide +kernel : ∀ t : Fin grid0.N, _)

/-- Row `r` of the block of `x` at point `t` is row `512·t + r` of `x`. -/
theorem iblk0_apply (c : Dev nD) (t : Fin cfg0.N) (b : Fin 4) (r : Fin 512) (k : Fin 1024) (s : Fin 8192)
    (hs : s.val = 512 * t.val + r.val) :
    (iblk m c 0 t : Vec Ideal S4x512x1024 .f32) (ix3 b r k) = (V m c main_arg0 : S4x8192x1024.Idx → EReal) (ix3 b s k) := by
  obtain ⟨e0, e1, e2, -⟩ := idx_facts t
  unfold iblk
  rw [View.read_apply]
  show V m c main_arg0 _ = V m c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 512 + 1 * r.val = s.val; rw [e1, hs]; omega
  | ⟨2, _⟩ => show win0_0.index t (2 : Fin 3) * 1024 + 1 * k.val = k.val; rw [e2]; omega

/-- Row `r` of the block of the positional table at point `t` is row `512·t + r` of the table. -/
theorem iblk1_apply (c : Dev nD) (t : Fin cfg0.N) (r : Fin 512) (k : Fin 1024) (s : Fin 8192)
    (hs : s.val = 512 * t.val + r.val) :
    (iblk m c 1 t : Vec Ideal S512x1024 .f32) (ix2 r k) = (V m c main_arg1 : S8192x1024.Idx → EReal) (ix2 s k) := by
  obtain ⟨-, -, -, e0, e1, -⟩ := idx_facts t
  unfold iblk
  rw [View.read_apply]
  show V m c main_arg1 _ = V m c main_arg1 _
  congr 1
  funext a
  apply Fin.ext
  match a with
  | ⟨0, _⟩ => show win0_1.index t (0 : Fin 2) * 512 + 1 * r.val = s.val; rw [e0, hs]; omega
  | ⟨1, _⟩ => show win0_1.index t (1 : Fin 2) * 1024 + 1 * k.val = k.val; rw [e1]; omega

/-- The block of `γ` at any point is `γ`. -/
theorem iblk2_apply (c : Dev nD) (t : Fin cfg0.N) (d : Fin 1024) :
    (iblk m c 2 t : Vec Ideal S1024 .f32) (ix1 d) = (V m c main_arg2 : S1024.Idx → EReal) (ix1 d) := by
  obtain ⟨-, -, -, -, -, e0, -⟩ := idx_facts t
  unfold iblk
  rw [View.read_apply]
  show V m c main_arg2 _ = V m c main_arg2 _
  congr 1
  funext a
  apply Fin.ext
  match a with
  | ⟨0, _⟩ => show win0_2.index t (0 : Fin 1) * 1024 + 1 * d.val = d.val; rw [e0]; omega

/-- The block of `β` at any point is `β`. -/
theorem iblk3_apply (c : Dev nD) (t : Fin cfg0.N) (d : Fin 1024) :
    (iblk m c 3 t : Vec Ideal S1024 .f32) (ix1 d) = (V m c main_arg3 : S1024.Idx → EReal) (ix1 d) := by
  obtain ⟨-, -, -, -, -, -, e0, -⟩ := idx_facts t
  unfold iblk
  rw [View.read_apply]
  show V m c main_arg3 _ = V m c main_arg3 _
  congr 1
  funext a
  apply Fin.ext
  match a with
  | ⟨0, _⟩ => show win0_3.index t (0 : Fin 1) * 1024 + 1 * d.val = d.val; rw [e0]; omega

/-! ## What a point writes back -/

/-- WHAT POINT `t` WRITES BACK is block `t` of the normalization of the argument arrays as the region finds them. -/
theorem flushed_eq (c : Dev nD) (t : Fin cfg0.N) :
    (dats m 0 c).flushed 4 t = ((cfg0.win 4).blk t).view.read (Elt Ideal)
      (Cert.LN.arrK (V m c main_arg0) (V m c main_arg1) (V m c main_arg2) (V m c main_arg3)) := by
  have hN : cfg0.N = 16 := N_0
  have ht : t.val < 16 := hN ▸ t.isLt
  obtain ⟨-, -, -, -, -, -, -, e0, e1, e2⟩ := idx_facts t
  rw [Value.flushed4, out_eq]
  refine funext fun (j : S4x512x1024.Idx) => ?_
  obtain ⟨b, r, d, rfl⟩ : ∃ (b : Fin 4) (r : Fin 512) (d : Fin 1024), j = ix3 b r d := ⟨j 0, j 1, j 2, eq_ix3 j⟩
  have hr : r.val < 512 := r.isLt
  let s : Fin 8192 := ⟨512 * t.val + r.val, by omega⟩
  show Value.E4 (iblk m c 0 t) (iblk m c 1 t) (iblk m c 2 t) (iblk m c 3 t) (ix3 b r d) = _
  refine (block_apply (iblk m c 0 t) (iblk m c 1 t) (iblk m c 2 t) (iblk m c 3 t)
    (V m c main_arg0) (V m c main_arg1) (V m c main_arg2) (V m c main_arg3) b r d s
    (fun k => iblk0_apply m c t b r k s rfl) (fun k => iblk1_apply m c t r k s rfl)
    (iblk2_apply m c t d) (iblk3_apply m c t d)).trans ?_
  rw [View.read_apply]
  show _ = Cert.LN.arrK (V m c main_arg0) (V m c main_arg1) (V m c main_arg2) (V m c main_arg3) _
  have hemb : ((cfg0.win 4).blk t).view.emb (ix3 b r d) = (ix3 b s d : S4x8192x1024.Idx) := by
    funext a
    apply Fin.ext
    match a with
    | ⟨0, _⟩ => show win0_4.index t (0 : Fin 3) * 4 + 1 * b.val = b.val; rw [e0]; omega
    | ⟨1, _⟩ => show win0_4.index t (1 : Fin 3) * 512 + 1 * r.val = 512 * t.val + r.val; rw [e1]; omega
    | ⟨2, _⟩ => show win0_4.index t (2 : Fin 3) * 1024 + 1 * d.val = d.val; rw [e2]; omega
  rw [hemb]
  rfl

/-! ## The blocks tile the array -/

/-- An index of the array is in point `t`'s block iff each coordinate is in the block's range on its axis. -/
theorem mem_blk (t : Fin cfg0.N) (i : S4x8192x1024.Idx) :
    i ∈ ((cfg0.win 4).blk t).view.set ↔ ∀ a : Fin 3, win0_4.index t a * S4x512x1024.size a ≤ (i a).val
      ∧ (i a).val < win0_4.index t a * S4x512x1024.size a + S4x512x1024.size a := by
  show i ∈ ((View.whole main_v0).slice (win0_4.rect t)).set ↔ _
  rw [View.set_slice_whole, Rect.mem_set_unit]
  exact Iff.rfl

/-- Every index of the array is in some point's block: row `s` is in block `s / 512`. -/
theorem cover (i : S4x8192x1024.Idx) :
    ∃ t : Fin cfg0.N, (cfg0.win 4).flush t = true ∧ i ∈ ((cfg0.win 4).blk t).view.set := by
  have hN : cfg0.N = 16 := N_0
  have hi0 : (i 0).val < 4 := (i 0).isLt
  have hi1 : (i 1).val < 8192 := (i 1).isLt
  have hi2 : (i 2).val < 1024 := (i 2).isLt
  obtain ⟨t, htv⟩ : ∃ t : Fin cfg0.N, t.val = (i 1).val / 512 := ⟨⟨(i 1).val / 512, by rw [hN]; omega⟩, rfl⟩
  obtain ⟨-, -, -, -, -, -, -, e0, e1, e2⟩ := idx_facts t
  refine ⟨t, flush0_4 t, ?_⟩
  rw [mem_blk]
  intro a
  match a with
  | ⟨0, _⟩ =>
    show win0_4.index t (0 : Fin 3) * 4 ≤ (i 0).val ∧ (i 0).val < win0_4.index t (0 : Fin 3) * 4 + 4
    rw [e0]; omega
  | ⟨1, _⟩ =>
    show win0_4.index t (1 : Fin 3) * 512 ≤ (i 1).val ∧ (i 1).val < win0_4.index t (1 : Fin 3) * 512 + 512
    rw [e1, htv]; omega
  | ⟨2, _⟩ =>
    show win0_4.index t (2 : Fin 3) * 1024 ≤ (i 2).val ∧ (i 2).val < win0_4.index t (2 : Fin 3) * 1024 + 1024
    rw [e2]; omega

/-- THE ARRAY after the run is the normalization of the argument arrays. -/
theorem final (c : Dev nD) : (dats m 0 c).arrAt 4 cfg0.N
    = Cert.LN.arrK (m ((c : Thread nD τ).loc main_arg0)) (m ((c : Thread nD τ).loc main_arg1))
        (m ((c : Thread nD τ).loc main_arg2)) (m ((c : Thread nD τ).loc main_arg3)) :=
  (dats m 0 c).arrAt_eq_of_cover 4
    (Cert.LN.arrK (V m c main_arg0) (V m c main_arg1) (V m c main_arg2) (V m c main_arg3))
    (fun t _ => flushed_eq m c t) cover

/-! ## The run, read -/

/-- The kernel's run: the result array ends at the normalization of the four arguments in the moment arrangement, the
    arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0)
          = Cert.LN.arrK (m ((c : Thread nD τ).loc main_arg0)) (m ((c : Thread nD τ).loc main_arg1))
              (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Value.run_blocks m ρ)

end Cert.KernelIdeal.LNValue

end
-- ==== Proof.RefTerm.lean ====
/-
  The reference program's result as ONE pure term of its four argument arrays, for any float values: the positional
  rows looked up by the index vector `0, 1, …, 8191` (an index below zero wrapped by `+ 8192`, the looked-up row kept where the
  index lies in `[0, 8191]` and replaced by the NaN word elsewhere), added to `x`; the row mean as the row sum over `1024`; the
  variance as the sum of the centred squares over `1024`; the centred entry over the square root of `variance + ε`; times `γ`,
  plus `β`. The stages are named so that each can be read at an index by itself.
-/
import proofs.«164354_g48069273977172_cont_8to1c4_857_15_alg».proof.Proof.Gen.ReferenceIdeal

noncomputable section

namespace Cert.ReferenceIdeal.LNTerm

open Cert.ReferenceIdeal Cert.ReferenceIdeal.Gen Idealize.ShloMosaic

variable {F : FTy → Type} [FloatOps F]

/-- The looked-up positions `0 … 8191` after the wrap of negative ones, as the column `[8192, 1]` the gather takes. -/
def takeIdx : IVec S8192x1 32 :=
  have idx : IVec S8192 32 := iotaInDim S8192 32 0
  have c : IVec S_ 32 := constantI S_ 32 0#32
  have v0 : IVec S8192 32 := broadcastInDim S8192 ![] bcast_S_S8192 c
  have v1 : IVec S8192 1 := cmpi .slt idx v0
  have c_0 : IVec S_ 32 := constantI S_ 32 8192#32
  have v2 : IVec S8192 32 := broadcastInDim S8192 ![] bcast_S_S8192 c_0
  have v3 : IVec S8192 32 := addi idx v2
  have v4 : IVec S8192 32 := select v1 v3 idx
  broadcastInDim S8192x1 ![0] bcast_S8192_S8192x1_0 v4

/-- Per looked-up row, whether its position lies in `[0, 8191]`. -/
def takeMask : IVec S8192 1 :=
  have v5 : IVec S8192x1 32 := takeIdx
  have c_1 : IVec S1 32 := constantI S1 32 8191#32
  have c_2 : IVec S_ 32 := constantI S_ 32 0#32
  have v6 : IVec S8192x1 32 := broadcastInDim S8192x1 ![] bcast_S_S8192x1 c_2
  have v7 : IVec S8192x1 1 := cmpi .sge v5 v6
  have v8 : IVec S1x1 32 := broadcastInDim S1x1 ![1] bcast_S1_S1x1_1 c_1
  have v9 : IVec S8192x1 32 := broadcastInDim S8192x1 ![0, 1] bcast_S1x1_S8192x1_0_1 v8
  have v10 : IVec S8192x1 1 := cmpi .sle v5 v9
  have v11 : IVec S8192x1 1 := andi v7 v10
  have c_3 : IVec S_ 1 := constantI S_ 1 1#1
  Host.reduce IntOp.andi v11 c_3 reducesTo_S8192x1_S8192_d1 h_S_

/-- The positional rows as looked up: the gathered row where the position is in range, the NaN word elsewhere. -/
def posEmb (pos : FVec F S8192x1024 .f32) : FVec F S8192x1024 .f32 :=
  have v13 : FVec F S8192x1024 .f32 := Host.gather gather_S8192x1024_S8192x1_S8192x1024_1_0_n_n_0_1_11024 pos takeIdx
  have v14 : IVec S8192x1024 1 := broadcastInDim S8192x1024 ![0] bcast_S8192_S8192x1024_0 takeMask
  have cst : FVec F S_ .f32 := constant S_ .f32 0x7FC00000#32
  have v15 : FVec F S8192x1024 .f32 := broadcastInDim S8192x1024 ![] bcast_S_S8192x1024 cst
  select v14 v13 v15

/-- `x` plus the looked-up rows, the same for every leading index. -/
def hArr (x : FVec F S4x8192x1024 .f32) (pos : FVec F S8192x1024 .f32) : FVec F S4x8192x1024 .f32 :=
  have v2 : FVec F S1x8192x1024 .f32 := broadcastInDim S1x8192x1024 ![1, 2] bcast_S8192x1024_S1x8192x1024_1_2 (posEmb pos)
  have v3 : FVec F S4x8192x1024 .f32 := broadcastInDim S4x8192x1024 ![0, 1, 2] bcast_S1x8192x1024_S4x8192x1024_0_1_2 v2
  addf x v3

/-- The row means, as the column `[4, 8192, 1]`: the row sum over `1024`. -/
def meanArr (v4 : FVec F S4x8192x1024 .f32) : FVec F S4x8192x1 .f32 :=
  have cst : FVec F S_ .f32 := constant S_ .f32 0x00000000#32
  have v5 : FVec F S4x8192 .f32 := Host.reduceAdd v4 cst reducesTo_S4x8192x1024_S4x8192_d2 h_S_
  have v6 : FVec F S4x8192x1 .f32 := broadcastInDim S4x8192x1 ![0, 1] bcast_S4x8192_S4x8192x1_0_1 v5
  have cst_0 : FVec F S_ .f32 := constant S_ .f32 0x44800000#32
  have v7 : FVec F S4x8192x1 .f32 := broadcastInDim S4x8192x1 ![] bcast_S_S4x8192x1 cst_0
  Host.divf v6 v7

/-- The square root of `variance + ε`, as the column `[4, 8192, 1]`: the variance is the sum of the centred squares over `1024`. -/
def stdArr (v4 : FVec F S4x8192x1024 .f32) (v8 : FVec F S4x8192x1 .f32) : FVec F S4x8192x1 .f32 :=
  have v9 : FVec F S4x8192x1024 .f32 := broadcastInDim S4x8192x1024 ![0, 1, 2] bcast_S4x8192x1_S4x8192x1024_0_1_2 v8
  have v10 : FVec F S4x8192x1024 .f32 := subf v4 v9
  have v11 : FVec F S4x8192x1024 .f32 := mulf v10 v10
  have cst_1 : FVec F S_ .f32 := constant S_ .f32 0x00000000#32
  have v12 : FVec F S4x8192 .f32 := Host.reduceAdd v11 cst_1 reducesTo_S4x8192x1024_S4x8192_d2 h_S_
  have v13 : FVec F S4x8192x1 .f32 := broadcastInDim S4x8192x1 ![0, 1] bcast_S4x8192_S4x8192x1_0_1 v12
  have cst_2 : FVec F S_ .f32 := constant S_ .f32 0x44800000#32
  have v14 : FVec F S4x8192x1 .f32 := broadcastInDim S4x8192x1 ![] bcast_S_S4x8192x1 cst_2
  have v15 : FVec F S4x8192x1 .f32 := Host.divf v13 v14
  have cst_3 : FVec F S_ .f32 := constant S_ .f32 0x3727C5AC#32
  have v18 : FVec F S4x8192x1 .f32 := broadcastInDim S4x8192x1 ![] bcast_S_S4x8192x1 cst_3
  have v19 : FVec F S4x8192x1 .f32 := addf v15 v18
  Host.sqrt v19

/-- The normalized, scaled and shifted result from the summed array `v4`, its mean column `v8` and its deviation column `v20`. -/
def finish (v4 : FVec F S4x8192x1024 .f32) (v8 v20 : FVec F S4x8192x1 .f32) (γ β : FVec F S1024 .f32) : FVec F S4x8192x1024 .f32 :=
  have v16 : FVec F S4x8192x1024 .f32 := broadcastInDim S4x8192x1024 ![0, 1, 2] bcast_S4x8192x1_S4x8192x1024_0_1_2 v8
  have v17 : FVec F S4x8192x1024 .f32 := subf v4 v16
  have v21 : FVec F S4x8192x1024 .f32 := broadcastInDim S4x8192x1024 ![0, 1, 2] bcast_S4x8192x1_S4x8192x1024_0_1_2 v20
  have v22 : FVec F S4x8192x1024 .f32 := Host.divf v17 v21
  have v23 : FVec F S1x1x1024 .f32 := broadcastInDim S1x1x1024 ![2] bcast_S1024_S1x1x1024_2 γ
  have v24 : FVec F S4x8192x1024 .f32 := broadcastInDim S4x8192x1024 ![0, 1, 2] bcast_S1x1x1024_S4x8192x1024_0_1_2 v23
  have v25 : FVec F S4x8192x1024 .f32 := mulf v22 v24
  have v26 : FVec F S1x1x1024 .f32 := broadcastInDim S1x1x1024 ![2] bcast_S1024_S1x1x1024_2 β
  have v27 : FVec F S4x8192x1024 .f32 := broadcastInDim S4x8192x1024 ![0, 1, 2] bcast_S1x1x1024_S4x8192x1024_0_1_2 v26
  addf v25 v27

/-- The reference's result as one term of its arguments. -/
def refTerm (x : FVec F S4x8192x1024 .f32) (pos : FVec F S8192x1024 .f32) (γ β : FVec F S1024 .f32) : FVec F S4x8192x1024 .f32 :=
  finish (hArr x pos) (meanArr (hArr x pos)) (stdArr (hArr x pos) (meanArr (hArr x pos))) γ β

end Cert.ReferenceIdeal.LNTerm

end
-- ==== Proof.RefRun.lean ====
/-
  The reference program's run, read back. The program is a straight line of fifty-six array operations once its
  two calls are unfolded where they stand (the lookup of the positional rows, and inside it the choice between a
  position and its wrap); each operation writes a buffer of its own from its operands' buffers. Hence every weakly
  fair execution terminates, the result buffer ends at the composition of the operations' functions applied to the
  four arguments' launch contents — the term `LNTerm.refTerm`, stage by stage — and the arguments' buffers are
  unchanged.
-/
import proofs.«164354_g48069273977172_cont_8to1c4_857_15_alg».proof.Proof.Gen.ReferenceIdeal
import proofs.«164354_g48069273977172_cont_8to1c4_857_15_alg».proof.Proof.RefTerm
import Idealize.ShloMosaic.Lib.StableHlo.Run

noncomputable section

namespace Cert.ReferenceIdeal.LNRun

open Cert.ReferenceIdeal Cert.ReferenceIdeal.Gen Idealize.ShloMosaic Idealize.ShloMosaic.TcCoe Idealize.SL.Sem Idealize.ShloMosaic.StableHlo

variable {F : FTy → Type} [FloatOps F]

/-- The program's operations in order, the two calls unfolded at their sites: the index vector; the lookup's
    twenty-three (the wrap of a negative position, the in-range mask, the gather, the select against the NaN word);
    then the sum with `x`, the two row reductions and the normalization. -/
abbrev ops : List (HloOp τ sig (Elt F)) :=
  [
    nullary main_v0 (iotaInDim S8192 32 0),
    TRef.nullary main_call0.c (constantI S_ 32 0#32),
    TRef.unary main_call0.c main_call0.v0 (broadcastInDim S8192 ![] bcast_S_S8192),
    TRef.binary (.of main_v0 : TRef sig ⟨S8192, .i32⟩) main_call0.v0 main_call0.v1 (cmpi .slt),
    TRef.nullary main_call0.c_0 (constantI S_ 32 8192#32),
    TRef.unary main_call0.c_0 main_call0.v2 (broadcastInDim S8192 ![] bcast_S_S8192),
    TRef.binary (.of main_v0 : TRef sig ⟨S8192, .i32⟩) main_call0.v2 main_call0.v3 addi,
    TRef.ternary main_call0.v1 main_call0.v3 (.of main_v0 : TRef sig ⟨S8192, .i32⟩) main_call0.call0.v0 select,
    TRef.unary main_call0.call0.v0 main_call0.v5 (broadcastInDim S8192x1 ![0] bcast_S8192_S8192x1_0),
    TRef.nullary main_call0.c_1 (constantI S1 32 8191#32),
    TRef.nullary main_call0.c_2 (constantI S_ 32 0#32),
    TRef.unary main_call0.c_2 main_call0.v6 (broadcastInDim S8192x1 ![] bcast_S_S8192x1),
    TRef.binary main_call0.v5 main_call0.v6 main_call0.v7 (cmpi .sge),
    TRef.unary main_call0.c_1 main_call0.v8 (broadcastInDim S1x1 ![1] bcast_S1_S1x1_1),
    TRef.unary main_call0.v8 main_call0.v9 (broadcastInDim S8192x1 ![0, 1] bcast_S1x1_S8192x1_0_1),
    TRef.binary main_call0.v5 main_call0.v9 main_call0.v10 (cmpi .sle),
    TRef.binary main_call0.v7 main_call0.v10 main_call0.v11 andi,
    TRef.nullary main_call0.c_3 (constantI S_ 1 1#1),
    TRef.binary main_call0.v11 main_call0.c_3 main_call0.v12 (fun x v => Host.reduce IntOp.andi x v reducesTo_S8192x1_S8192_d1 h_S_),
    TRef.binary (.of main_arg1 : TRef sig ⟨S8192x1024, .f32⟩) main_call0.v5 main_call0.v13 (fun x i => Host.gather gather_S8192x1024_S8192x1_S8192x1024_1_0_n_n_0_1_11024 x i),
    TRef.unary main_call0.v12 main_call0.v14 (broadcastInDim S8192x1024 ![0] bcast_S8192_S8192x1024_0),
    TRef.nullary main_call0.cst (constant S_ .f32 0x7FC00000#32),
    TRef.unary main_call0.cst main_call0.v15 (broadcastInDim S8192x1024 ![] bcast_S_S8192x1024),
    TRef.ternary main_call0.v14 main_call0.v13 main_call0.v15 main_call0.v16 select,
    unary main_v1 main_v2 (broadcastInDim S1x8192x1024 ![1, 2] bcast_S8192x1024_S1x8192x1024_1_2 : (⟨S8192x1024, .f32⟩ : BufTy).Contents (Elt F) → (⟨S1x8192x1024, .f32⟩ : BufTy).Contents (Elt F)),
    unary main_v2 main_v3 (broadcastInDim S4x8192x1024 ![0, 1, 2] bcast_S1x8192x1024_S4x8192x1024_0_1_2 : (⟨S1x8192x1024, .f32⟩ : BufTy).Contents (Elt F) → (⟨S4x8192x1024, .f32⟩ : BufTy).Contents (Elt F)),
    binary main_arg0 main_v3 main_v4 (addf : (⟨S4x8192x1024, .f32⟩ : BufTy).Contents (Elt F) → (⟨S4x8192x1024, .f32⟩ : BufTy).Contents (Elt F) → (⟨S4x8192x1024, .f32⟩ : BufTy).Contents (Elt F)),
    nullary main_cst (constant S_ .f32 0x00000000#32),
    binary main_v4 main_cst main_v5 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v5 main_v6 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_0 (constant S_ .f32 0x44800000#32),
    unary main_cst_0 main_v7 (broadcastInDim S4x8192x1 ![] bcast_S_S4x8192x1 : (⟨S_, .f32⟩ : BufTy).Contents (Elt F) → (⟨S4x8192x1, .f32⟩ : BufTy).Contents (Elt F)),
    binary main_v6 main_v7 main_v8 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v9 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v9 main_v10 (subf : (⟨S4x8192x1024, .f32⟩ : BufTy).Contents (Elt F) → (⟨S4x8192x1024, .f32⟩ : BufTy).Contents (Elt F) → (⟨S4x8192x1024, .f32⟩ : BufTy).Contents (Elt F)),
    binary main_v10 main_v10 main_v11 (mulf : (⟨S4x8192x1024, .f32⟩ : BufTy).Contents (Elt F) → (⟨S4x8192x1024, .f32⟩ : BufTy).Contents (Elt F) → (⟨S4x8192x1024, .f32⟩ : BufTy).Contents (Elt F)),
    nullary main_cst_1 (constant S_ .f32 0x00000000#32),
    binary main_v11 main_cst_1 main_v12 ((fun x v => Host.reduceAdd x v reducesTo_S4x8192x1024_S4x8192_d2 h_S_) : (⟨S4x8192x1024, .f32⟩ : BufTy).Contents (Elt F) → (⟨S_, .f32⟩ : BufTy).Contents (Elt F) → (⟨S4x8192, .f32⟩ : BufTy).Contents (Elt F)),
    unary main_v12 main_v13 (broadcastInDim S4x8192x1 ![0, 1] bcast_S4x8192_S4x8192x1_0_1 : (⟨S4x8192, .f32⟩ : BufTy).Contents (Elt F) → (⟨S4x8192x1, .f32⟩ : BufTy).Contents (Elt F)),
    nullary main_cst_2 (constant S_ .f32 0x44800000#32),
    unary main_cst_2 main_v14 (broadcastInDim S4x8192x1 ![] bcast_S_S4x8192x1 : (⟨S_, .f32⟩ : BufTy).Contents (Elt F) → (⟨S4x8192x1, .f32⟩ : BufTy).Contents (Elt F)),
    binary main_v13 main_v14 main_v15 (Host.divf : (⟨S4x8192x1, .f32⟩ : BufTy).Contents (Elt F) → (⟨S4x8192x1, .f32⟩ : BufTy).Contents (Elt F) → (⟨S4x8192x1, .f32⟩ : BufTy).Contents (Elt F)),
    unary main_v8 main_v16 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v4 main_v16 main_v17 (subf : (⟨S4x8192x1024, .f32⟩ : BufTy).Contents (Elt F) → (⟨S4x8192x1024, .f32⟩ : BufTy).Contents (Elt F) → (⟨S4x8192x1024, .f32⟩ : BufTy).Contents (Elt F)),
    nullary main_cst_3 (constant S_ .f32 0x3727C5AC#32),
    unary main_cst_3 main_v18 (broadcastInDim S4x8192x1 ![] bcast_S_S4x8192x1 : (⟨S_, .f32⟩ : BufTy).Contents (Elt F) → (⟨S4x8192x1, .f32⟩ : BufTy).Contents (Elt F)),
    binary main_v15 main_v18 main_v19 (addf : (⟨S4x8192x1, .f32⟩ : BufTy).Contents (Elt F) → (⟨S4x8192x1, .f32⟩ : BufTy).Contents (Elt F) → (⟨S4x8192x1, .f32⟩ : BufTy).Contents (Elt F)),
    unary main_v19 main_v20 (Host.sqrt : (⟨S4x8192x1, .f32⟩ : BufTy).Contents (Elt F) → (⟨S4x8192x1, .f32⟩ : BufTy).Contents (Elt F)),
    unary main_v20 main_v21 (broadcastInDim S4x8192x1024 ![0, 1, 2] bcast_S4x8192x1_S4x8192x1024_0_1_2 : (⟨S4x8192x1, .f32⟩ : BufTy).Contents (Elt F) → (⟨S4x8192x1024, .f32⟩ : BufTy).Contents (Elt F)),
    binary main_v17 main_v21 main_v22 (Host.divf : (⟨S4x8192x1024, .f32⟩ : BufTy).Contents (Elt F) → (⟨S4x8192x1024, .f32⟩ : BufTy).Contents (Elt F) → (⟨S4x8192x1024, .f32⟩ : BufTy).Contents (Elt F)),
    unary main_arg2 main_v23 (broadcastInDim S1x1x1024 ![2] bcast_S1024_S1x1x1024_2 : (⟨S1024, .f32⟩ : BufTy).Contents (Elt F) → (⟨S1x1x1024, .f32⟩ : BufTy).Contents (Elt F)),
    unary main_v23 main_v24 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v22 main_v24 main_v25 (mulf : (⟨S4x8192x1024, .f32⟩ : BufTy).Contents (Elt F) → (⟨S4x8192x1024, .f32⟩ : BufTy).Contents (Elt F) → (⟨S4x8192x1024, .f32⟩ : BufTy).Contents (Elt F)),
    unary main_arg3 main_v26 (broadcastInDim S1x1x1024 ![2] bcast_S1024_S1x1x1024_2 : (⟨S1024, .f32⟩ : BufTy).Contents (Elt F) → (⟨S1x1x1024, .f32⟩ : BufTy).Contents (Elt F)),
    unary main_v26 main_v27 (broadcastInDim S4x8192x1024 ![0, 1, 2] bcast_S1x1x1024_S4x8192x1024_0_1_2 : (⟨S1x1x1024, .f32⟩ : BufTy).Contents (Elt F) → (⟨S4x8192x1024, .f32⟩ : BufTy).Contents (Elt F)),
    binary main_v25 main_v27 main_v28 (addf : (⟨S4x8192x1024, .f32⟩ : BufTy).Contents (Elt F) → (⟨S4x8192x1024, .f32⟩ : BufTy).Contents (Elt F) → (⟨S4x8192x1024, .f32⟩ : BufTy).Contents (Elt F)) ]

set_option maxRecDepth 2048 in
/-- The program is that straight line: the called functions unfolded at their calls, sequencing reassociated. -/
theorem main_eq (c : Dev nD) : main (F := F) c = seq ops := by
  simp only [main, fn_take.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub ..,
    binary_bufs_sub .., ternary_bufs_sub .., unary_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., unary_bufs_sub .., nullary_bufs_sub .., unary_bufs_sub .., ternary_bufs_sub ..,
    unary_bufs_sub .., unary_bufs_sub .., binary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

-- The two reductions and the lookup stay folded while the two sides are compared: the equation is between the same
-- operations applied to the same operands and never looks inside a sum over a row or a search for a looked-up row.
attribute [local irreducible] Host.reduce Host.reduceAdd Host.gather in
set_option maxRecDepth 8192 in
set_option maxHeartbeats 400000 in
/-- What the result buffer holds after the line: each operation's value at its own buffer is its function of its
    operands' values, every other buffer is untouched, so the fold at the last buffer is the composition of the fifty-six
    functions, which is the stated term stage by stage. -/
theorem out_eq (V : Valuation τ sig (Elt F)) :
    after ops V (main_v28 : DevRef τ sig)
      = LNTerm.refTerm (V (main_arg0 : DevRef τ sig)) (V (main_arg1 : DevRef τ sig))
          (V (main_arg2 : DevRef τ sig)) (V (main_arg3 : DevRef τ sig)) := by
  after_results_simp
  rfl

/-- No operation writes an argument's buffer: each result has a buffer of its own. -/
theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

/-- On the one device, for any float values, from any memory with zero counters: every weakly fair execution of the
    program terminates with the result buffer at the stated term of the four arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v28)
          = Cert.ReferenceIdeal.LNTerm.refTerm (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v28).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c))⟩)
    (run_seq scopedRefs_eq scopedSems_eq defs main (fun _ => ops) main_eq (fun _ => ops_sub) m ρ)

end Cert.ReferenceIdeal.LNRun

end
-- ==== Proof.LibGatherRows.lean ====
/-
  A gather whose start indices are one column of row numbers, read at an index.

  The start indices have shape [E, 1]: result row e is operand row idx[e, 0], read as a SIGNED integer and clamped
  into [0, N − 1] (a negative number reads row 0, a number past the end reads the last row). For an operand [N, C]
  gathered in whole rows (slice sizes [1, C], the row axis collapsed, the column axis the offset axis) the result at
  (e, k) is the operand at (clamped idx[e, 0], k) (host_gather_rows_apply); for an operand [N] (slice sizes [1]) the
  result at e is the operand at the clamped idx[e, 0] (host_gather_vec_apply). This is what x[idx] lowers to for
  an index vector idx. Both follow from reading the operand index one axis at a time: on the row axis it is the
  clamped start index, on the column axis the result's own column.
-/
import Idealize.ShloMosaic.PureOps
import Idealize.ShloMosaic.Lib.ValueIdx

noncomputable section

namespace Cert.GatherRows

open Idealize.ShloMosaic Idealize.ShloMosaic.ValueIdx

/-- The row a signed row number reads: clamped into [0, N − 1]. -/
def clampRow (N : Nat) (hN : 0 < N) {w : Nat} (b : BitVec w) : Fin N := ⟨min b.toInt.toNat (N - 1), by omega⟩

theorem clampRow_val (N : Nat) (hN : 0 < N) {w : Nat} (b : BitVec w) : (clampRow N hN b).val = min b.toInt.toNat (N - 1) := rfl

/-- A row number already inside [0, N) reads its own row. -/
theorem clampRow_of_toInt (N : Nat) (hN : 0 < N) {w : Nat} (b : BitVec w) (v : Fin N) (h : b.toInt = (v.val : Int)) :
    clampRow N hN b = v := by
  apply Fin.ext
  rw [clampRow_val, h]
  have := v.isLt
  omega

/-! ## Whole rows of width C -/

section Rows
variable {α : Type} {N E C w : Nat}

/-- The dimension numbers of a row gather: operand [N, C], start indices [E, 1], result [E, C]. -/
abbrev rowDims (N E C : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

variable (wf : GatherDims.WF ⟨2, ![N, C]⟩ ⟨2, ![E, 1]⟩ ⟨2, ![E, C]⟩ [1] [0] [] [0] [] 1 ![1, C])

/-- The operand index of result (e, k): the clamped row number, and column k. -/
theorem row_operandIdx (hN : 0 < N) (idx : IVec ⟨2, ![E, 1]⟩ w) (e : Fin E) (k : Fin C) :
    (rowDims N E C wf).operandIdx (ix2 e k) idx = ix2 (clampRow N hN (idx (ix2 e 0))) k := by
  funext a
  refine Fin.ext ?_
  match a with
  | ⟨0, _⟩ =>
    show (rowDims N E C wf).start (ix2 e k) idx 0 + (rowDims N E C wf).batchCoord (ix2 e k) 0 + (rowDims N E C wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N E C wf).startIndexMap from List.mem_singleton.mpr rfl)]
    have hsi : (rowDims N E C wf).siIdx (ix2 e k) ⟨List.idxOf (0 : Fin 2) (rowDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowDims N E C wf).start (ix2 e k) idx 1 + (rowDims N E C wf).batchCoord (ix2 e k) 1 + (rowDims N E C wf).offCoord (ix2 e k) 1 = k.val
    rw [GatherDims.batchCoord_eq_zero _ _ _ List.not_mem_nil]
    unfold GatherDims.start
    rw [dif_neg (show ¬ (1 : Fin 2) ∈ (rowDims N E C wf).startIndexMap from (show ¬ (1 : Fin 2) ∈ ([0] : List (Fin 2)) by decide))]
    unfold GatherDims.offCoord
    rw [dif_pos (show (1 : Fin 2) ∈ (rowDims N E C wf).sKept from
      (GatherDims.mem_sKept _ _).mpr ⟨(show ¬ (1 : Fin 2) ∈ ([0] : List (Fin 2)) by decide), List.not_mem_nil⟩)]
    simp only [Nat.zero_add]
    rfl

/-- THE ROW GATHER READ AT (e, k): the operand at (clamped idx[e, 0], k), for ANY dimension numbers of a row gather (a
    program's own record: its seven fields are these by unfolding). -/
theorem host_gather_rows_apply (hN : 0 < N) (d : GatherDims ⟨2, ![N, C]⟩ ⟨2, ![E, 1]⟩ ⟨2, ![E, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![E, 1]⟩ w) (e : Fin E) (k : Fin C) :
    Host.gather d x idx (ix2 e k) = x (ix2 (clampRow N hN (idx (ix2 e 0))) k) := by
  obtain ⟨od, cs, ob, sb, sm, iv, ss, wf⟩ := d
  dsimp only at h1 h2 h3 h4 h5 h6 h7
  subst h1 h2 h3 h4 h5 h6 h7
  unfold Host.gather
  exact congrArg x (row_operandIdx wf hN idx e k)

end Rows

/-! ## Scalars -/

section Vec
variable {α : Type} {N E w : Nat}

/-- The dimension numbers of the rank-1 form: operand [N], start indices [E, 1], result [E]. -/
abbrev vecDims (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

variable (wf : GatherDims.WF ⟨1, ![N]⟩ ⟨2, ![E, 1]⟩ ⟨1, ![E]⟩ [] [0] [] [0] [] 1 ![1])

/-- The operand index of result e: the clamped row number. -/
theorem vec_operandIdx (hN : 0 < N) (idx : IVec ⟨2, ![E, 1]⟩ w) (e : Fin E) :
    (vecDims N E wf).operandIdx (ix1 e) idx = ix1 (clampRow N hN (idx (ix2 e 0))) := by
  funext a
  obtain rfl : a = 0 := Subsingleton.elim _ _
  refine Fin.ext ?_
  show (vecDims N E wf).start (ix1 e) idx 0 + (vecDims N E wf).batchCoord (ix1 e) 0 + (vecDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx (ix1 e) ⟨List.idxOf (0 : Fin 1) (vecDims N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- THE RANK-1 GATHER READ AT e: the operand at the clamped idx[e, 0], for ANY dimension numbers of that form. -/
theorem host_gather_vec_apply (hN : 0 < N) (d : GatherDims ⟨1, ![N]⟩ ⟨2, ![E, 1]⟩ ⟨1, ![E]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![N]⟩ : Shape).Idx → α) (idx : IVec ⟨2, ![E, 1]⟩ w) (e : Fin E) :
    Host.gather d x idx (ix1 e) = x (ix1 (clampRow N hN (idx (ix2 e 0)))) := by
  obtain ⟨od, cs, ob, sb, sm, iv, ss, wf⟩ := d
  dsimp only at h1 h2 h3 h4 h5 h6 h7
  subst h1 h2 h3 h4 h5 h6 h7
  unfold Host.gather
  exact congrArg x (vec_operandIdx wf hN idx e)

end Vec

end Cert.GatherRows

end
-- ==== Proof.RefTake.lean ====
/-
  The positional lookup reads the table itself.

  The reference looks the positional rows up by the index vector 0, 1, …, 8191. A row number e below 8192, written as a
  32-bit word and read signed, is e: it is not negative, so the wrap of negative indices leaves it alone; it lies in
  [0, 8191], so the in-range test passes for every row and the looked-up row is kept; and clamped into [0, 8191] it is
  still e, so the gathered row e is row e of the table. Hence the looked-up array equals the table, entry by entry.
-/
import proofs.«164354_g48069273977172_cont_8to1c4_857_15_alg».proof.Proof.RefTerm
import proofs.«164354_g48069273977172_cont_8to1c4_857_15_alg».proof.Proof.LibGatherRows
import Idealize.ShloMosaic.Lib.Pipeline.Value
import Idealize.ShloMosaic.Lib.IdealHost
import Idealize.ShloMosaic.Lib.ValueIdx

noncomputable section

namespace Cert.ReferenceIdeal.LNRead

open Cert.ReferenceIdeal Cert.ReferenceIdeal.Gen Cert.ReferenceIdeal.LNTerm Idealize.ShloMosaic Idealize.ShloMosaic.ValueIdx

/-! ## Row numbers as signed words -/

/-- A row number below 8192 as a 32-bit word, read unsigned, is the number. -/
theorem toNat_row (e : Fin 8192) : (BitVec.ofNat 32 e.val).toNat = e.val := by
  have := e.isLt
  rw [BitVec.toNat_ofNat]
  exact Nat.mod_eq_of_lt (by omega)

/-- Read signed, it is the number too: it is far below 2³¹. -/
theorem toInt_row (e : Fin 8192) : (BitVec.ofNat 32 e.val).toInt = (e.val : Int) := by
  have := e.isLt
  rw [BitVec.toInt_eq_toNat_of_lt (by rw [toNat_row]; omega), toNat_row]

/-- A row number is not negative. -/
theorem row_not_neg (e : Fin 8192) : IntOp.cmpi .slt (BitVec.ofNat 32 e.val) (0#32) = 0#1 := by
  have h := toInt_row e
  show BitVec.ofBool ((BitVec.ofNat 32 e.val).slt 0#32) = 0#1
  have : (BitVec.ofNat 32 e.val).slt 0#32 = false := by
    rw [BitVec.slt, h]; simp
  rw [this]; rfl

/-- A row number is at least zero, as the in-range test asks. -/
theorem row_ge_zero (e : Fin 8192) : IntOp.cmpi .sge (BitVec.ofNat 32 e.val) (0#32) = 1#1 := by
  have h := toInt_row e
  show BitVec.ofBool ((0#32 : BitVec 32).sle (BitVec.ofNat 32 e.val)) = 1#1
  have : (0#32 : BitVec 32).sle (BitVec.ofNat 32 e.val) = true := by
    rw [BitVec.sle, h]; simp
  rw [this]; rfl

/-- A row number is at most 8191. -/
theorem row_le_last (e : Fin 8192) : IntOp.cmpi .sle (BitVec.ofNat 32 e.val) (8191#32) = 1#1 := by
  have h := toInt_row e
  have he := e.isLt
  show BitVec.ofBool ((BitVec.ofNat 32 e.val).sle 8191#32) = 1#1
  have : (BitVec.ofNat 32 e.val).sle 8191#32 = true := by
    rw [BitVec.sle, h]
    have h2 : (8191#32 : BitVec 32).toInt = 8191 := by decide
    rw [h2]; simp; omega
  rw [this]; rfl

/-! ## The index column, the in-range mask, the looked-up rows -/

/-- The index column at row e holds the word of e. -/
theorem takeIdx_apply (e : Fin 8192) : LNTerm.takeIdx (ix2 e (0 : Fin 1)) = BitVec.ofNat 32 e.val := by
  unfold LNTerm.takeIdx
  refine (broadcastInDim_apply _ _ _ (ix2 e (0 : Fin 1)) (ix1 e)
    (fun a => match a with
      | ⟨0, _⟩ => by show e.val = if (8192 : Nat) = 1 then 0 else e.val; rw [if_neg (by decide)])).trans ?_
  rw [select_apply]
  show Scalar.select (IntOp.cmpi .slt (BitVec.ofNat 32 e.val) (0#32)) _ (BitVec.ofNat 32 e.val) = _
  rw [row_not_neg]
  rfl

/-- Every row's position passes the in-range test. -/
theorem inRange_apply (j : S8192x1.Idx) :
    andi (cmpi .sge LNTerm.takeIdx (broadcastInDim S8192x1 ![] bcast_S_S8192x1 (constantI S_ 32 0#32)))
      (cmpi .sle LNTerm.takeIdx (broadcastInDim S8192x1 ![0, 1] bcast_S1x1_S8192x1_0_1
        (broadcastInDim S1x1 ![1] bcast_S1_S1x1_1 (constantI S1 32 8191#32)))) j = 1#1 := by
  obtain ⟨e, z, rfl⟩ : ∃ (e : Fin 8192) (z : Fin 1), j = ix2 e z := ⟨j 0, j 1, eq_ix2 j⟩
  obtain rfl : z = 0 := Subsingleton.elim _ _
  show IntOp.andi (IntOp.cmpi .sge (LNTerm.takeIdx (ix2 e 0)) (0#32)) (IntOp.cmpi .sle (LNTerm.takeIdx (ix2 e 0)) (8191#32)) = 1#1
  rw [takeIdx_apply, row_ge_zero, row_le_last]
  rfl

/-- A conjunction of ones from one is one, along any list. -/
theorem foldl_andi_ones {ι : Type} (f : ι → BitVec 1) (hf : ∀ i, f i = 1#1) :
    ∀ l : List ι, l.foldl (fun r i => IntOp.andi r (f i)) 1#1 = 1#1
  | [] => rfl
  | a :: l => by
    rw [List.foldl_cons, hf a]
    exact foldl_andi_ones f hf l

/-- So the mask is one at every row. -/
theorem takeMask_apply (j : S8192.Idx) : takeMask j = 1#1 := by
  unfold takeMask
  rw [Host.reduce_eq_foldl]
  exact foldl_andi_ones _ inRange_apply _

/-- The looked-up rows are the table's rows. -/
theorem posEmb_apply {F : FTy → Type} [FloatOps F] (pos : FVec F S8192x1024 .f32) (s : Fin 8192) (k : Fin 1024) :
    posEmb pos (ix2 s k) = pos (ix2 s k) := by
  unfold posEmb
  rw [select_apply]
  have hm : broadcastInDim S8192x1024 ![0] bcast_S8192_S8192x1024_0 takeMask (ix2 s k) = 1#1 := by
    refine (broadcastInDim_apply _ _ _ (ix2 s k) (ix1 s)
      (fun a => match a with
        | ⟨0, _⟩ => by show s.val = if (8192 : Nat) = 1 then 0 else s.val; rw [if_neg (by decide)])).trans ?_
    exact takeMask_apply _
  rw [hm]
  show Host.gather gather_S8192x1024_S8192x1_S8192x1024_1_0_n_n_0_1_11024 pos LNTerm.takeIdx (ix2 s k) = _
  rw [Cert.GatherRows.host_gather_rows_apply (by decide : 0 < 8192) _ rfl rfl rfl rfl rfl rfl rfl pos LNTerm.takeIdx s k,
    takeIdx_apply, Cert.GatherRows.clampRow_of_toInt 8192 (by decide) _ s (toInt_row s)]

end Cert.ReferenceIdeal.LNRead

end
-- ==== Proof.RefRead.lean ====
/-
  The reference's term, read at an index on the extended reals.

  Entry (b, s, d) of the reference's result depends on row (b, s) of x, on row s of the positional table (the lookup reads
  the table itself), and on entry d of γ and β. Each stage is read at an index: a broadcast reads its operand at the
  coordinates it keeps; the host's sum along the last axis is the sum over that axis's 1024 coordinates (its initial value
  is the zero word); the scalar literals read as their words. Put together, the entry is the centred-squares arrangement
  of layer normalization: mean = (∑ₖ h)/1024, variance = (∑ₖ (h − mean)²)/1024, and
  (h − mean) / √(variance + ε) · γ[d] + β[d], with h = x + pos.
-/
import proofs.«164354_g48069273977172_cont_8to1c4_857_15_alg».proof.Proof.RefTake
import proofs.«164354_g48069273977172_cont_8to1c4_857_15_alg».proof.Proof.Spec
import Idealize.ShloMosaic.PureOps.Ideal.Laws

noncomputable section

namespace Cert.ReferenceIdeal.LNRead

open Cert.ReferenceIdeal Cert.ReferenceIdeal.Gen Cert.ReferenceIdeal.LNTerm Idealize.ShloMosaic Idealize.ShloMosaic.ValueIdx

/-! ## Broadcasts read at an index -/

section Bcast
variable {α : Type}

/-- A [8192, 1024] array repeated along a new leading axis of extent 4 reads, at (b, s, k), its entry (s, k). -/
theorem bcast_lead (v : S8192x1024.Idx → α) (b : Fin 4) (s : Fin 8192) (k : Fin 1024) :
    broadcastInDim S4x8192x1024 ![0, 1, 2] bcast_S1x8192x1024_S4x8192x1024_0_1_2
      (broadcastInDim S1x8192x1024 ![1, 2] bcast_S8192x1024_S1x8192x1024_1_2 v) (ix3 b s k) = v (ix2 s k) := by
  refine (broadcastInDim_apply _ _ _ (ix3 b s k) (ix3 (0 : Fin 1) s k) (fun a => match a with
    | ⟨0, _⟩ => by show (0 : Nat) = if (1 : Nat) = 1 then 0 else b.val; rw [if_pos rfl]
    | ⟨1, _⟩ => by show s.val = if (8192 : Nat) = 1 then 0 else s.val; rw [if_neg (by decide)]
    | ⟨2, _⟩ => by show k.val = if (1024 : Nat) = 1 then 0 else k.val; rw [if_neg (by decide)])).trans ?_
  exact broadcastInDim_apply _ _ _ (ix3 (0 : Fin 1) s k) (ix2 s k) (fun a => match a with
    | ⟨0, _⟩ => by show s.val = if (8192 : Nat) = 1 then 0 else s.val; rw [if_neg (by decide)]
    | ⟨1, _⟩ => by show k.val = if (1024 : Nat) = 1 then 0 else k.val; rw [if_neg (by decide)])

/-- A [4, 8192] array as the column [4, 8192, 1] reads, at (b, s, 0), its entry (b, s). -/
theorem bcast_col (v : S4x8192.Idx → α) (b : Fin 4) (s : Fin 8192) :
    broadcastInDim S4x8192x1 ![0, 1] bcast_S4x8192_S4x8192x1_0_1 v (ix3 b s (0 : Fin 1)) = v (ix2 b s) :=
  broadcastInDim_apply _ _ _ (ix3 b s (0 : Fin 1)) (ix2 b s) (fun a => match a with
    | ⟨0, _⟩ => by show b.val = if (4 : Nat) = 1 then 0 else b.val; rw [if_neg (by decide)]
    | ⟨1, _⟩ => by show s.val = if (8192 : Nat) = 1 then 0 else s.val; rw [if_neg (by decide)])

/-- A column [4, 8192, 1] spread along the last axis reads, at (b, s, k), its entry (b, s, 0). -/
theorem bcast_row (v : S4x8192x1.Idx → α) (b : Fin 4) (s : Fin 8192) (k : Fin 1024) :
    broadcastInDim S4x8192x1024 ![0, 1, 2] bcast_S4x8192x1_S4x8192x1024_0_1_2 v (ix3 b s k) = v (ix3 b s (0 : Fin 1)) :=
  broadcastInDim_apply _ _ _ (ix3 b s k) (ix3 b s (0 : Fin 1)) (fun a => match a with
    | ⟨0, _⟩ => by show b.val = if (4 : Nat) = 1 then 0 else b.val; rw [if_neg (by decide)]
    | ⟨1, _⟩ => by show s.val = if (8192 : Nat) = 1 then 0 else s.val; rw [if_neg (by decide)]
    | ⟨2, _⟩ => by show (0 : Nat) = if (1 : Nat) = 1 then 0 else k.val; rw [if_pos rfl])

/-- A vector [1024] spread over the two leading axes reads, at (b, s, d), its entry d. -/
theorem bcast_vec (g : S1024.Idx → α) (b : Fin 4) (s : Fin 8192) (d : Fin 1024) :
    broadcastInDim S4x8192x1024 ![0, 1, 2] bcast_S1x1x1024_S4x8192x1024_0_1_2
      (broadcastInDim S1x1x1024 ![2] bcast_S1024_S1x1x1024_2 g) (ix3 b s d) = g (ix1 d) := by
  refine (broadcastInDim_apply _ _ _ (ix3 b s d) (ix3 (0 : Fin 1) (0 : Fin 1) d) (fun a => match a with
    | ⟨0, _⟩ => by show (0 : Nat) = if (1 : Nat) = 1 then 0 else b.val; rw [if_pos rfl]
    | ⟨1, _⟩ => by show (0 : Nat) = if (1 : Nat) = 1 then 0 else s.val; rw [if_pos rfl]
    | ⟨2, _⟩ => by show d.val = if (1024 : Nat) = 1 then 0 else d.val; rw [if_neg (by decide)])).trans ?_
  exact broadcastInDim_apply _ _ _ (ix3 (0 : Fin 1) (0 : Fin 1) d) (ix1 d) (fun a => match a with
    | ⟨0, _⟩ => by show d.val = if (1024 : Nat) = 1 then 0 else d.val; rw [if_neg (by decide)])

end Bcast

/-- A scalar literal spread over the column shape reads as its word everywhere. -/
theorem bcast_word (w : BitVec 32) (j : S4x8192x1.Idx) :
    broadcastInDim S4x8192x1 ![] bcast_S_S4x8192x1 (constant (F := Ideal) S_ .f32 w) j = Ideal.ofBits .f32 w :=
  broadcastInDim_scalar_apply _ _ j

/-! ## The sum along the last axis -/

theorem red : S4x8192x1024.Reduces [2] S4x8192 := by decide

/-- Row (b, s) with the last coordinate k put back is the index (b, s, k). -/
theorem lift_eq (b : Fin 4) (s : Fin 8192) (k : Fin 1024) : red.lift (ix2 b s) k = ix3 b s k := by
  funext a
  refine Fin.ext ?_
  match a with
  | ⟨0, _⟩ => rfl
  | ⟨1, _⟩ => rfl
  | ⟨2, _⟩ => rfl

/-- The host's sum along the last axis from the zero word, at row (b, s): the sum of the row's 1024 entries. -/
theorem rowSum_apply (v : FVec Ideal S4x8192x1024 .f32) (b : Fin 4) (s : Fin 8192) :
    Host.reduceAdd v (constant (F := Ideal) S_ .f32 0x00000000#32) reducesTo_S4x8192x1024_S4x8192_d2 h_S_ (ix2 b s)
      = ∑ k : Fin 1024, v (ix3 b s k) := by
  rw [hostReduceAdd_apply, Ideal.hostReduceAdd_single _ red]
  show Ideal.ofBits .f32 0x00000000#32 + (∑ k : Fin 1024, v (red.lift (ix2 b s) k)) = _
  rw [Ideal.ofBits_zero_f32, zero_add]
  exact Finset.sum_congr rfl (fun k _ => by rw [lift_eq])

/-! ## The stages -/

/-- The summed array at (b, s, k) is x[b,s,k] + pos[s,k]. -/
theorem hArr_apply (x : FVec Ideal S4x8192x1024 .f32) (pos : FVec Ideal S8192x1024 .f32) (b : Fin 4) (s : Fin 8192) (k : Fin 1024) :
    hArr x pos (ix3 b s k) = Cert.LN.h x pos b s k := by
  show x (ix3 b s k) + broadcastInDim S4x8192x1024 ![0, 1, 2] bcast_S1x8192x1024_S4x8192x1024_0_1_2
      (broadcastInDim S1x8192x1024 ![1, 2] bcast_S8192x1024_S1x8192x1024_1_2 (posEmb pos)) (ix3 b s k) = _
  rw [bcast_lead, posEmb_apply]
  rfl

/-- The mean column at (b, s, 0): the row sum over 1024. -/
theorem meanArr_apply (v4 : FVec Ideal S4x8192x1024 .f32) (b : Fin 4) (s : Fin 8192) :
    meanArr v4 (ix3 b s (0 : Fin 1)) = Ideal.div (∑ k : Fin 1024, v4 (ix3 b s k)) Cert.LN.cN := by
  show Ideal.div (broadcastInDim S4x8192x1 ![0, 1] bcast_S4x8192_S4x8192x1_0_1
      (Host.reduceAdd v4 (constant (F := Ideal) S_ .f32 0x00000000#32) reducesTo_S4x8192x1024_S4x8192_d2 h_S_) (ix3 b s (0 : Fin 1)))
    (broadcastInDim S4x8192x1 ![] bcast_S_S4x8192x1 (constant (F := Ideal) S_ .f32 0x44800000#32) (ix3 b s (0 : Fin 1))) = _
  rw [bcast_col, rowSum_apply, bcast_word]
  rfl

/-- The deviation column at (b, s, 0): the square root of the centred squares' sum over 1024, plus ε. -/
theorem stdArr_apply (v4 : FVec Ideal S4x8192x1024 .f32) (v8 : FVec Ideal S4x8192x1 .f32) (b : Fin 4) (s : Fin 8192) :
    stdArr v4 v8 (ix3 b s (0 : Fin 1))
      = Ideal.sqrt (Ideal.div (∑ k : Fin 1024, (v4 (ix3 b s k) - v8 (ix3 b s (0 : Fin 1))) * (v4 (ix3 b s k) - v8 (ix3 b s (0 : Fin 1))))
          Cert.LN.cN + Cert.LN.eps) := by
  show Ideal.sqrt (Ideal.div (broadcastInDim S4x8192x1 ![0, 1] bcast_S4x8192_S4x8192x1_0_1
      (Host.reduceAdd (mulf (subf v4 (broadcastInDim S4x8192x1024 ![0, 1, 2] bcast_S4x8192x1_S4x8192x1024_0_1_2 v8))
          (subf v4 (broadcastInDim S4x8192x1024 ![0, 1, 2] bcast_S4x8192x1_S4x8192x1024_0_1_2 v8)))
        (constant (F := Ideal) S_ .f32 0x00000000#32) reducesTo_S4x8192x1024_S4x8192_d2 h_S_) (ix3 b s (0 : Fin 1)))
      (broadcastInDim S4x8192x1 ![] bcast_S_S4x8192x1 (constant (F := Ideal) S_ .f32 0x44800000#32) (ix3 b s (0 : Fin 1)))
    + broadcastInDim S4x8192x1 ![] bcast_S_S4x8192x1 (constant (F := Ideal) S_ .f32 0x3727C5AC#32) (ix3 b s (0 : Fin 1))) = _
  rw [bcast_col, rowSum_apply, bcast_word, bcast_word]
  refine congrArg Ideal.sqrt (congrArg (· + Cert.LN.eps) (congrArg (Ideal.div · Cert.LN.cN) (Finset.sum_congr rfl (fun k _ => ?_))))
  show (v4 (ix3 b s k) - broadcastInDim S4x8192x1024 ![0, 1, 2] bcast_S4x8192x1_S4x8192x1024_0_1_2 v8 (ix3 b s k))
      * (v4 (ix3 b s k) - broadcastInDim S4x8192x1024 ![0, 1, 2] bcast_S4x8192x1_S4x8192x1024_0_1_2 v8 (ix3 b s k)) = _
  rw [bcast_row]

/-- The result at (b, s, d) from the summed array, the mean column and the deviation column. -/
theorem finish_apply (v4 : FVec Ideal S4x8192x1024 .f32) (v8 v20 : FVec Ideal S4x8192x1 .f32) (γ β : FVec Ideal S1024 .f32)
    (b : Fin 4) (s : Fin 8192) (d : Fin 1024) :
    finish v4 v8 v20 γ β (ix3 b s d)
      = Ideal.div (v4 (ix3 b s d) - v8 (ix3 b s (0 : Fin 1))) (v20 (ix3 b s (0 : Fin 1))) * γ (ix1 d) + β (ix1 d) := by
  show Ideal.div (v4 (ix3 b s d) - broadcastInDim S4x8192x1024 ![0, 1, 2] bcast_S4x8192x1_S4x8192x1024_0_1_2 v8 (ix3 b s d))
        (broadcastInDim S4x8192x1024 ![0, 1, 2] bcast_S4x8192x1_S4x8192x1024_0_1_2 v20 (ix3 b s d))
      * broadcastInDim S4x8192x1024 ![0, 1, 2] bcast_S1x1x1024_S4x8192x1024_0_1_2
          (broadcastInDim S1x1x1024 ![2] bcast_S1024_S1x1x1024_2 γ) (ix3 b s d)
      + broadcastInDim S4x8192x1024 ![0, 1, 2] bcast_S1x1x1024_S4x8192x1024_0_1_2
          (broadcastInDim S1x1x1024 ![2] bcast_S1024_S1x1x1024_2 β) (ix3 b s d) = _
  rw [bcast_row, bcast_row, bcast_vec, bcast_vec]

/-! ## The whole term -/

/-- The reference's result is the centred-squares arrangement, entry by entry. -/
theorem refTerm_eq (x : FVec Ideal S4x8192x1024 .f32) (pos : FVec Ideal S8192x1024 .f32) (γ β : FVec Ideal S1024 .f32) :
    refTerm x pos γ β = Cert.LN.arrR x pos γ β := by
  funext i
  obtain ⟨b, s, d, rfl⟩ : ∃ (b : Fin 4) (s : Fin 8192) (d : Fin 1024), i = ix3 b s d := ⟨i 0, i 1, i 2, eq_ix3 i⟩
  show finish (hArr x pos) (meanArr (hArr x pos)) (stdArr (hArr x pos) (meanArr (hArr x pos))) γ β (ix3 b s d)
    = Cert.LN.outR x pos γ β b s d
  rw [finish_apply, stdArr_apply, meanArr_apply]
  simp only [hArr_apply]
  rfl

end Cert.ReferenceIdeal.LNRead

end
-- ==== Proof.lean ====
/-
  Layer normalization of `x + pos` over the last axis, scaled by γ and shifted by β: a kernel that streams blocks of 512
  rows against the plain array program. Over x : [4, 8192, 1024], pos : [8192, 1024], γ, β : [1024], with
  h[b,s,k] = x[b,s,k] + pos[s,k]:

  * the kernel, at each of its 16 grid points, takes the row sums S₁ = ∑ₖ h and S₂ = ∑ₖ h², the mean S₁·2⁻¹⁰, the variance
    S₂·2⁻¹⁰ − mean², and writes (h − mean) · rsqrt(variance + ε) · γ + β; its blocks tile the result, so the whole array is
    that formula at every index (Proof/KernelValue.lean);
  * the reference looks the positional rows up by the index vector 0 … 8191 — which reads the table itself (Proof/RefTake.lean)
    —, takes the mean S₁/1024, the variance (∑ₖ (h − mean)²)/1024, and writes ((h − mean)/√(variance + ε)) · γ + β
    (Proof/RefRun.lean for its run, Proof/RefRead.lean for its term read at an index).

  On the extended reals the two agree once every entry of x and pos is finite (Proof/Algebra.lean): 2⁻¹⁰ is exactly 1/1024,
  the mean of the squares minus the squared mean is the mean of the centred squares, that common variance is not negative so
  variance + ε is a positive real, and there the reciprocal square root is the inverse of the square root. Finiteness is what
  the precondition says (Proof/Finite.lean); γ and β enter both sides the same way and need none. The kernel's idealization
  rewrote nothing, so that conjunct is trivial; the three frames are the generated frame runs and the reference's run.
-/
import proofs.«164354_g48069273977172_cont_8to1c4_857_15_alg».proof.Defs
import proofs.«164354_g48069273977172_cont_8to1c4_857_15_alg».proof.Proof.Gen.Kernel
import proofs.«164354_g48069273977172_cont_8to1c4_857_15_alg».proof.Proof.Gen.Kernel.Skeleton
import proofs.«164354_g48069273977172_cont_8to1c4_857_15_alg».proof.Proof.Gen.Kernel.Launch
import proofs.«164354_g48069273977172_cont_8to1c4_857_15_alg».proof.Proof.Gen.Kernel.Points
import proofs.«164354_g48069273977172_cont_8to1c4_857_15_alg».proof.Proof.Gen.Kernel.Frame
import proofs.«164354_g48069273977172_cont_8to1c4_857_15_alg».proof.Proof.Gen.KernelIdeal
import proofs.«164354_g48069273977172_cont_8to1c4_857_15_alg».proof.Proof.Gen.KernelIdeal.Skeleton
import proofs.«164354_g48069273977172_cont_8to1c4_857_15_alg».proof.Proof.Gen.KernelIdeal.Launch
import proofs.«164354_g48069273977172_cont_8to1c4_857_15_alg».proof.Proof.Gen.KernelIdeal.Points
import proofs.«164354_g48069273977172_cont_8to1c4_857_15_alg».proof.Proof.Gen.KernelIdeal.Frame
import proofs.«164354_g48069273977172_cont_8to1c4_857_15_alg».proof.Proof.Gen.KernelIdeal.Value
import proofs.«164354_g48069273977172_cont_8to1c4_857_15_alg».proof.Proof.Gen.ReferenceIdeal
import proofs.«164354_g48069273977172_cont_8to1c4_857_15_alg».proof.Proof.Gen.Pre_finite_inputs
import proofs.«164354_g48069273977172_cont_8to1c4_857_15_alg».proof.Proof.Spec
import proofs.«164354_g48069273977172_cont_8to1c4_857_15_alg».proof.Proof.Algebra
import proofs.«164354_g48069273977172_cont_8to1c4_857_15_alg».proof.Proof.Finite
import proofs.«164354_g48069273977172_cont_8to1c4_857_15_alg».proof.Proof.KernelValue
import proofs.«164354_g48069273977172_cont_8to1c4_857_15_alg».proof.Proof.RefRun
import proofs.«164354_g48069273977172_cont_8to1c4_857_15_alg».proof.Proof.RefRead
import Idealize.ShloMosaic.Adequacy
import Idealize.ShloMosaic.Init

noncomputable section

namespace Cert.Proof

open Idealize.ShloMosaic Idealize.ShloMosaic.TcCoe Idealize.SL.Sem

/-- The printed kernel runs and leaves its arguments alone. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference's run, with what it says about the result dropped. -/
theorem frame_referenceIdeal : Cert.frame_ReferenceIdeal := fun m ρ _ =>
  (θ_run Cert.ReferenceIdeal.defs _ _).mono (fun _ h c => (h c).2) (Cert.ReferenceIdeal.LNRun.run (F := Ideal) m ρ)

/-- From memories agreeing on the four arguments, with every entry finite, the kernel's array (the moments arrangement)
    and the reference's (the centred-squares arrangement) are the same extended reals at every index. -/
theorem algebraic : Cert.algebraic_KernelIdeal_ReferenceIdeal := by
  intro m ρ m' ρ' hpre hagree
  refine ⟨_, Cert.KernelIdeal.LNValue.run m ρ, ?_⟩
  refine (θ_run Cert.ReferenceIdeal.defs _ _).mono (fun _ h c => ⟨(h c).1.trans ?_, (h c).2⟩)
    (Cert.ReferenceIdeal.LNRun.run (F := Ideal) m' ρ')
  obtain ⟨hx, hp⟩ := Cert.LN.Finite.real_of_fn _ _ _ _ (hpre c)
  rw [(hagree c).1, (hagree c).2.1, (hagree c).2.2.1, (hagree c).2.2.2, Cert.ReferenceIdeal.LNRead.refTerm_eq]
  exact Cert.LN.arrR_eq_arrK _ _ _ _ hx hp

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
